-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S1024x4096 : Shape := ⟨2, ![1024, 4096]⟩
abbrev S1024x64x64 : Shape := ⟨3, ![1024, 64, 64]⟩
abbrev S1024x64 : Shape := ⟨2, ![1024, 64]⟩
abbrev S1024x64x1 : Shape := ⟨3, ![1024, 64, 1]⟩
abbrev S2048x2048 : Shape := ⟨2, ![2048, 2048]⟩
abbrev S1024x2048 : Shape := ⟨2, ![1024, 2048]⟩
abbrev S2048x1024 : Shape := ⟨2, ![2048, 1024]⟩

abbrev nBuf : Space → Nat
  | .hbm => 5
  | .vmem => 15
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .bf16⟩
  | .hbm, ⟨3, _⟩ => ⟨S4096x4096, .bf16⟩
  | .hbm, ⟨4, _⟩ => ⟨S8192x4096, .f32⟩
  | .local _ .vmem, ⟨0, _⟩ => ⟨S1024x4096, .f32⟩
  | .local _ .vmem, ⟨1, _⟩ => ⟨S1024x4096, .f32⟩
  | .local _ .vmem, ⟨2, _⟩ => ⟨S1024x4096, .bf16⟩
  | .local _ .vmem, ⟨3, _⟩ => ⟨S1024x4096, .bf16⟩
  | .local _ .vmem, ⟨4, _⟩ => ⟨S1024x4096, .f32⟩
  | .local _ .vmem, ⟨5, _⟩ => ⟨S1024x4096, .f32⟩
  | .local _ .vmem, ⟨6, _⟩ => ⟨S1024x4096, .bf16⟩
  | .local _ .vmem, ⟨7, _⟩ => ⟨S1024x4096, .bf16⟩
  | .local _ .vmem, ⟨8, _⟩ => ⟨S2048x2048, .bf16⟩
  | .local _ .vmem, ⟨9, _⟩ => ⟨S2048x2048, .bf16⟩
  | .local _ .vmem, ⟨10, _⟩ => ⟨S1024x2048, .bf16⟩
  | .local _ .vmem, ⟨11, _⟩ => ⟨S1024x2048, .bf16⟩
  | .local _ .vmem, ⟨12, _⟩ => ⟨S2048x1024, .f32⟩
  | .local _ .vmem, ⟨13, _⟩ => ⟨S2048x1024, .f32⟩
  | .local _ .vmem, ⟨14, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem0_1 : DmaSem sig := 5
abbrev cc1_sem1_0 : DmaSem sig := 6
abbrev cc1_sem1_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev grid2 : Pipeline.Grid := ⟨3, ![4, 4, 2], ![false, false, false]⟩

def k2_cond2 (i : grid2.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x2048 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x2048 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S2048x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true, false]

class Facts₀ : Prop where
  inb_S1024x4096_S1024x4096_0_0 : ∀ a, (![0, 0] : Fin 2 → Nat) a + S1024x4096.size a ≤ S1024x4096.size a
  h_S1024x4096 : 0 < S1024x4096.numel
  shapeCasts_S1024x4096_S1024x64x64 : S1024x4096.ShapeCasts S1024x64x64
  reduces_S1024x64x64_S1024x64 : S1024x64x64.Reduces [2] S1024x64
  shapeCasts_S1024x64_S1024x64x1 : S1024x64.ShapeCasts S1024x64x1
  broadcasts_S1024x64x1_S1024x64x64 : S1024x64x1.Broadcasts S1024x64x64
  shapeCasts_S1024x64x64_S1024x4096 : S1024x64x64.ShapeCasts S1024x4096
  bitsLt_bf16_f32 : FTy.bits .bf16 < FTy.bits .f32
  packedbf16_S1024x4096_S1024x4096_0_0 : (Rect.unit (s := S1024x4096) ![0, 0] S1024x4096.size inb_S1024x4096_S1024x4096_0_0).PackedRows (EltTy.packing .bf16)
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x4096.size a ≤ S8192x4096.size a
  hwx0_0 : ∀ i : grid0.Coords, EltTy.bits .f32 = 32 ∨ (Rect.block (s := S8192x4096) S1024x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S8192x4096.size a
  hwx0_1 : ∀ i : grid0.Coords, EltTy.bits .bf16 = 32 ∨ (Rect.block (s := S8192x4096) S1024x4096.size (cc0_transform_1 i) (hinb0_1 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x4096.size a ≤ S4096x4096.size a
  hwx1_0 : ∀ i : grid1.Coords, EltTy.bits .f32 = 32 ∨ (Rect.block (s := S4096x4096) S1024x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x4096.size a ≤ S4096x4096.size a
  hwx1_1 : ∀ i : grid1.Coords, EltTy.bits .bf16 = 32 ∨ (Rect.block (s := S4096x4096) S1024x4096.size (cc1_transform_1 i) (hinb1_1 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x2048.size a ≤ S8192x4096.size a
  hwx2_0 : ∀ i : grid2.Coords, EltTy.bits .bf16 = 32 ∨ (Rect.block (s := S8192x4096) S2048x2048.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x2048.size a ≤ S4096x4096.size a
  hwx2_1 : ∀ i : grid2.Coords, EltTy.bits .bf16 = 32 ∨ (Rect.block (s := S4096x4096) S1024x2048.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x1024.size a ≤ S8192x4096.size a
  hwx2_2 : ∀ i : grid2.Coords, EltTy.bits .f32 = 32 ∨ (Rect.block (s := S8192x4096) S2048x1024.size (cc2_transform_2 i) (hinb2_2 i)).WholeWords (EltTy.packing .f32)

variable [Facts₀]

def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_arg0) S1024x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x4096.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev win1_0 : Pipeline.Window sig grid1 :=
  Pipeline.Window.ofSpec (Memref.whole main_arg1) S1024x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1024x4096.size cc1_transform_1 reads1_1 true false 2 stage1_1 sem1_1
    hrank1 hreads1_1 hinb1_1 nbuf1_1 (Memref.isWhole_whole _) hwx1_1 hstage1_1

abbrev win1 : Fin 2 → Pipeline.Window sig grid1 := fun | 0 => win1_0 | 1 => win1_1 | ⟨_ + 2, h⟩ => absurd h (Nat.not_lt.2 (Nat.le_add_left _ _))
abbrev spec1 : Fin 2 → Pipeline.WinSpec sig grid1.rank := fun w => (win1 w).toWinSpec

abbrev win2_0 : Pipeline.Window sig grid2 :=
  Pipeline.Window.ofSpec (Memref.whole main_v0) S2048x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x2048.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S2048x1024.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S8192x64x64 : Shape := ⟨3, ![8192, 64, 64]⟩
abbrev S_ : Shape := ⟨0, ![]⟩
abbrev S8192x64 : Shape := ⟨2, ![8192, 64]⟩
abbrev S8192x64x1 : Shape := ⟨3, ![8192, 64, 1]⟩
abbrev S4096x64x64 : Shape := ⟨3, ![4096, 64, 64]⟩
abbrev S4096x64 : Shape := ⟨2, ![4096, 64]⟩
abbrev S4096x64x1 : Shape := ⟨3, ![4096, 64, 1]⟩

abbrev nBuf : Space → Nat
  | .hbm => 54
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x64x64, .f32⟩
  | .hbm, ⟨3, _⟩ => ⟨S8192x64x64, .f32⟩
  | .hbm, ⟨4, _⟩ => ⟨S_, .f32⟩
  | .hbm, ⟨5, _⟩ => ⟨S8192x64, .f32⟩
  | .hbm, ⟨6, _⟩ => ⟨S8192x64x1, .f32⟩
  | .hbm, ⟨7, _⟩ => ⟨S_, .f32⟩
  | .hbm, ⟨8, _⟩ => ⟨S8192x64x1, .f32⟩
  | .hbm, ⟨9, _⟩ => ⟨S8192x64x1, .f32⟩
  | .hbm, ⟨10, _⟩ => ⟨S_, .f32⟩
  | .hbm, ⟨11, _⟩ => ⟨S8192x64x1, .f32⟩
  | .hbm, ⟨12, _⟩ => ⟨S8192x64x1, .f32⟩
  | .hbm, ⟨13, _⟩ => ⟨S8192x64x64, .f32⟩
  | .hbm, ⟨14, _⟩ => ⟨S8192x64x64, .f32⟩
  | .hbm, ⟨15, _⟩ => ⟨S8192x64x64, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S8192x64x64, .f32⟩
  | .hbm, ⟨20, _⟩ => ⟨S8192x64x64, .f32⟩
  | .hbm, ⟨21, _⟩ => ⟨S_, .f32⟩
  | .hbm, ⟨22, _⟩ => ⟨S8192x64x64, .f32⟩
  | .hbm, ⟨23, _⟩ => ⟨S8192x64x64, .f32⟩
  | .hbm, ⟨24, _⟩ => ⟨S8192x64x64, .f32⟩
  | .hbm, ⟨25, _⟩ => ⟨S8192x64x64, .f32⟩
  | .hbm, ⟨26, _⟩ => ⟨S8192x4096, .f32⟩
  | .hbm, ⟨27, _⟩ => ⟨S4096x64x64, .f32⟩
  | .hbm, ⟨28, _⟩ => ⟨S4096x64x64, .f32⟩
  | .hbm, ⟨29, _⟩ => ⟨S_, .f32⟩
  | .hbm, ⟨30, _⟩ => ⟨S4096x64, .f32⟩
  | .hbm, ⟨31, _⟩ => ⟨S4096x64x1, .f32⟩
  | .hbm, ⟨32, _⟩ => ⟨S_, .f32⟩
  | .hbm, ⟨33, _⟩ => ⟨S4096x64x1, .f32⟩
  | .hbm, ⟨34, _⟩ => ⟨S4096x64x1, .f32⟩
  | .hbm, ⟨35, _⟩ => ⟨S_, .f32⟩
  | .hbm, ⟨36, _⟩ => ⟨S4096x64x1, .f32⟩
  | .hbm, ⟨37, _⟩ => ⟨S4096x64x1, .f32⟩
  | .hbm, ⟨38, _⟩ => ⟨S4096x64x64, .f32⟩
  | .hbm, ⟨39, _⟩ => ⟨S4096x64x64, .f32⟩
  | .hbm, ⟨40, _⟩ => ⟨S4096x64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S4096x64x64, .f32⟩
  | .hbm, ⟨45, _⟩ => ⟨S4096x64x64, .f32⟩
  | .hbm, ⟨46, _⟩ => ⟨S_, .f32⟩
  | .hbm, ⟨47, _⟩ => ⟨S4096x64x64, .f32⟩
  | .hbm, ⟨48, _⟩ => ⟨S4096x64x64, .f32⟩
  | .hbm, ⟨49, _⟩ => ⟨S4096x64x64, .f32⟩
  | .hbm, ⟨50, _⟩ => ⟨S4096x64x64, .f32⟩
  | .hbm, ⟨51, _⟩ => ⟨S4096x4096, .f32⟩
  | .hbm, ⟨52, _⟩ => ⟨S4096x4096, .f32⟩
  | .hbm, ⟨53, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_cst_3 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_cst_5 : Ref sig .tc := ⟨.hbm, 32, rfl⟩
abbrev main_v19 : Ref sig .tc := ⟨.hbm, 33, rfl⟩
abbrev main_v20 : Ref sig .tc := ⟨.hbm, 34, rfl⟩
abbrev main_cst_6 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩

abbrev nD : Nat := 1
abbrev τ : Topo := Topo.v7x

variable {F : FTy → Type} [FloatOps F]

class Facts₀ : Prop where
  shapeCasts_S8192x4096_S8192x64x64 : S8192x4096.ShapeCasts S8192x64x64
  reducesTo_S8192x64x64_S8192x64_d2 : S8192x64x64.ReducesTo [2] S8192x64
  h_S_ : 0 < S_.numel
  bcast_S8192x64_S8192x64x1_0_1 : S8192x64.BroadcastsInDim S8192x64x1 (![0, 1] : Fin 2 → Fin S8192x64x1.rank)
  bcast_S_S8192x64x1 : S_.BroadcastsInDim S8192x64x1 (![] : Fin 0 → Fin S8192x64x1.rank)
  bcast_S8192x64x1_S8192x64x64_0_1_2 : S8192x64x1.BroadcastsInDim S8192x64x64 (![0, 1, 2] : Fin 3 → Fin S8192x64x64.rank)
  bcast_S_S8192x64x64 : S_.BroadcastsInDim S8192x64x64 (![] : Fin 0 → Fin S8192x64x64.rank)
  shapeCasts_S8192x64x64_S8192x4096 : S8192x64x64.ShapeCasts S8192x4096
  shapeCasts_S4096x4096_S4096x64x64 : S4096x4096.ShapeCasts S4096x64x64
  reducesTo_S4096x64x64_S4096x64_d2 : S4096x64x64.ReducesTo [2] S4096x64
  bcast_S4096x64_S4096x64x1_0_1 : S4096x64.BroadcastsInDim S4096x64x1 (![0, 1] : Fin 2 → Fin S4096x64x1.rank)
  bcast_S_S4096x64x1 : S_.BroadcastsInDim S4096x64x1 (![] : Fin 0 → Fin S4096x64x1.rank)
  bcast_S4096x64x1_S4096x64x64_0_1_2 : S4096x64x1.BroadcastsInDim S4096x64x64 (![0, 1, 2] : Fin 3 → Fin S4096x64x64.rank)
  bcast_S_S4096x64x64 : S_.BroadcastsInDim S4096x64x64 (![] : Fin 0 → Fin S4096x64x64.rank)
  shapeCasts_S4096x64x64_S4096x4096 : S4096x64x64.ShapeCasts S4096x4096
  transposes_S4096x4096_S4096x4096_1_0 : S4096x4096.Transposes [1, 0] S4096x4096
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.KernelQuant.lean ====
/-
  The two group-wise rounding passes of the program as pipeline regions: for each, what a grid point's body leaves in
  its output block as a function of its input block, that the body runs without fault, and the proof data and body
  obligation the pipeline library asks for.  Stated for any float instance and for any contents `V` of the core's
  buffers at the pass's entry.
-/
import proofs.«162318_j1176821039703_2_alg».proof.Proof.Gen.Kernel.Launch
import proofs.«162318_j1176821039703_2_alg».proof.Proof.Gen.Kernel.Skeleton
import proofs.«162318_j1176821039703_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The group-wise rounding pass over the activations (pipeline 0), entered with the core's buffers at `V`

One grid point handles 1024 whole rows: the input window's block is rows 1024·t … 1024·t+1023 of the array, and the
output window's block is the same rows of the result.  The body reads the input block whole, computes the rounded
block from it alone, and stores it whole; nothing is carried from point to point. -/

section Pass0
variable (V : (c : Dev nD) → (b : Ref sig .tc) → Buf (Elt F) ((c : Thread nD τ).loc b))

/-- Window `w`'s block at grid point `t`, read off its array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block whenever the body runs: the window is fetched at every
    point, is never cut and never idle, and the body leaves the block in place. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body reads and writes through: the whole 1024 × 4096 block. -/
abbrev whole0 : Rect S1024x4096 := Rect.unit (s := S1024x4096) ![0, 0] S1024x4096.size inb_S1024x4096_S1024x4096_0_0

/-- What the body leaves in the output window's buffer: its single whole-block store of the rounded block. -/
def rounded0 (x0 : Vec F S1024x4096 .f32) : Vec F S1024x4096 .bf16 :=
  View.canon [⟨whole0, k0_pay1 (View.ld x0 whole0)⟩]

/-- That store covers the buffer. -/
theorem covers0 (p0 : Vec F S1024x4096 .bf16) (y : S1024x4096.Idx) :
    ∃ pc ∈ ([⟨whole0, p0⟩] : List (View.Piece (Elt F) S1024x4096 .bf16)), y ∈ pc.1.set :=
  View.cover_of_tiled [⟨whole0, p0⟩] S1024x4096.size (by rfl) y

set_option maxHeartbeats 1000000 in
/-- The body on whole staging buffers — the input's holding `x0`, the output's anything — runs without fault and
    ends with the input's unchanged and the output's holding the rounded block of `x0`. -/
theorem body0_runs (c : Dev nD) (E : Set ℕ) (i : grid0.Coords) (arg1 : Memref sig .tc .vmem S1024x4096 .f32) (harg1 : arg1.IsWhole)
    (arg2 : Memref sig .tc .vmem S1024x4096 .bf16) (harg2 : arg2.IsWhole)
    (x0 : Vec F S1024x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rounded0 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-- The pass's proof data on core `c`: the arrays as found; after the body the input's buffer still at its block and the
    output's at the rounded block; the invariant only the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rounded0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = rounded0 (blk0 V c 0 t) := by dsimp only [dat0]
theorem dat0_before_in (c : Dev nD) (t : Fin cfg0.N) (d) : (dat0 V c).before 0 t d = blk0 V c 0 t :=
  before0_in V (dat0 V c) (dat0_A V c 0) (dat0_after_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, so the run above applies; the invariant and what
    the core owes pass through unread. -/
theorem point0_runs (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_runs c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every point. -/
theorem obligation0 (c : Dev nD) : BodyObligation (dat0 (F := F) V c) (defs₀ (F := F)) Variants.none () Set.univ := fun t => by
  rw [bigSep_W0, bigSep_W0]
  exact point0_runs V c t

end Pass0

/-! # The group-wise rounding pass over the weights (pipeline 1), entered with the core's buffers at `V`

One grid point handles 1024 whole rows: the input window's block is rows 1024·t … 1024·t+1023 of the array, and the
output window's block is the same rows of the result.  The body reads the input block whole, computes the rounded
block from it alone, and stores it whole; nothing is carried from point to point. -/

section Pass1
variable (V : (c : Dev nD) → (b : Ref sig .tc) → Buf (Elt F) ((c : Thread nD τ).loc b))

/-- Window `w`'s block at grid point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block whenever the body runs: the window is fetched at every
    point, is never cut and never idle, and the body leaves the block in place. -/
theorem before1_in {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body reads and writes through: the whole 1024 × 4096 block. -/
abbrev whole1 : Rect S1024x4096 := Rect.unit (s := S1024x4096) ![0, 0] S1024x4096.size inb_S1024x4096_S1024x4096_0_0

/-- What the body leaves in the output window's buffer: its single whole-block store of the rounded block. -/
def rounded1 (x0 : Vec F S1024x4096 .f32) : Vec F S1024x4096 .bf16 :=
  View.canon [⟨whole1, k1_pay1 (View.ld x0 whole1)⟩]

/-- That store covers the buffer. -/
theorem covers1 (p0 : Vec F S1024x4096 .bf16) (y : S1024x4096.Idx) :
    ∃ pc ∈ ([⟨whole1, p0⟩] : List (View.Piece (Elt F) S1024x4096 .bf16)), y ∈ pc.1.set :=
  View.cover_of_tiled [⟨whole1, p0⟩] S1024x4096.size (by rfl) y

set_option maxHeartbeats 1000000 in
/-- The body on whole staging buffers — the input's holding `x0`, the output's anything — runs without fault and
    ends with the input's unchanged and the output's holding the rounded block of `x0`. -/
theorem body1_runs (c : Dev nD) (E : Set ℕ) (i : grid1.Coords) (arg1 : Memref sig .tc .vmem S1024x4096 .f32) (harg1 : arg1.IsWhole)
    (arg2 : Memref sig .tc .vmem S1024x4096 .bf16) (harg2 : arg2.IsWhole)
    (x0 : Vec F S1024x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rounded1 x0)) -∗ K ⟨⟩))
      ⊢ wp frame (wpE (defs₀ (F := F)) Variants.none c none) E (cc1__quantize_kernel i arg1 harg1 arg2 harg2) K := by
  simp only [cc1__quantize_kernel_eq_skeleton]; unfold cc1__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-- The pass's proof data on core `c`: the arrays as found; after the body the input's buffer still at its block and the
    output's at the rounded block; the invariant only the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => rounded1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_in (c : Dev nD) (t : Fin cfg1.N) : (dat1 V c).after 0 t = blk1 V c 0 t := by dsimp only [dat1]
theorem dat1_after_out (c : Dev nD) (t : Fin cfg1.N) : (dat1 V c).after 1 t = rounded1 (blk1 V c 0 t) := by dsimp only [dat1]
theorem dat1_before_in (c : Dev nD) (t : Fin cfg1.N) (d) : (dat1 V c).before 0 t d = blk1 V c 0 t :=
  before1_in V (dat1 V c) (dat1_A V c 0) (dat1_after_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds the point's block, so the run above applies; the invariant and what
    the core owes pass through unread. -/
theorem point1_runs (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_in]
  rw [show (dat1 V c).Φ t.succ = (dat1 V c).Φ t.castSucc from rfl,
    show (dat1 V c).owesAt () t.succ = (dat1 V c).owesAt () t.castSucc from rfl,
    dat1_after_in, dat1_after_out]
  iintro ⟨HΦ, Ho, ⟨%d0, H0⟩, ⟨%d1, H1⟩⟩
  iapply (body1_runs c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every point. -/
theorem obligation1 (c : Dev nD) : BodyObligation (dat1 (F := F) V c) (defs₀ (F := F)) Variants.none () Set.univ := fun t => by
  rw [bigSep_W1, bigSep_W1]
  exact point1_runs V c t

end Pass1

end Cert.Kernel.Frames

end
-- ==== Proof.KernelAccRuns.lean ====
/-
  The product pass as a pipeline region, first half: its grid is 4 × 4 × 2, the last coordinate stepping along the
  contracted axis in two halves.  The body zeroes its accumulator where that coordinate is 0, adds the half's partial
  product to the accumulator at every point, and copies the accumulator to the output block where the coordinate is 1.
  Here: the two conditions decided over the grid, where the output window is idle, the accumulator singled out of the
  buffers the pass holds, and the body's run in each of the two cases the grid meets.
-/
import proofs.«162318_j1176821039703_2_alg».proof.Proof.Gen.Kernel.Launch
import proofs.«162318_j1176821039703_2_alg».proof.Proof.Gen.Kernel.Skeleton
import proofs.«162318_j1176821039703_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid -/

/-- "The contracted axis is at its first half": the body's first test, from the grid coordinates. -/
abbrev atFirst (i : grid2.Coords) : Prop := (Scalar.cmpi .ne (Scalar.extui (Scalar.cmpi .eq (BitVec.ofNat 32 (i 2).val) 0#32)) 0#32) = 1#1
/-- It holds at the even points of the grid's order. -/
theorem atFirst_iff : ∀ t : Fin cfg2.N, atFirst (grid2.coords t) ↔ t.val % 2 = 0 :=
  (by decide +kernel : ∀ t : Fin grid2.N, atFirst (grid2.coords t) ↔ t.val % 2 = 0)

/-- "The contracted axis is at its last half": the body's second test. -/
abbrev atLast (i : grid2.Coords) : Prop := k2_cond2 i = 1#1
/-- It holds at the odd points. -/
theorem atLast_iff : ∀ t : Fin cfg2.N, atLast (grid2.coords t) ↔ t.val % 2 = 1 :=
  (by decide +kernel : ∀ t : Fin grid2.N, atLast (grid2.coords t) ↔ t.val % 2 = 1)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- At a first-half point the body stores nothing into the output window, -/
theorem idle2_2_first : ∀ t : Fin cfg2.N, atFirst (grid2.coords t) → ¬atLast (grid2.coords t) → cfg2.idle 2 (grid2.coords t) = true := by decide +kernel
/-- and the pipeline does not write the window's block back there. -/
theorem keep2_2_first : ∀ t : Fin cfg2.N, atFirst (grid2.coords t) → ¬atLast (grid2.coords t) → (cfg2.win 2).flush t = false := by decide +kernel
/-- At a last-half point the body stores the output block. -/
theorem live2_2_last : ∀ t : Fin cfg2.N, ¬atFirst (grid2.coords t) → atLast (grid2.coords t) → cfg2.idle 2 (grid2.coords t) = false := by decide +kernel

/-! ## The buffers the body is called on -/

abbrev lhsM (t : Fin cfg2.N) : Memref sig .tc .vmem S2048x2048 .bf16 := win2_0.stage (cfg2.slots t 0)
abbrev lhsW (t : Fin cfg2.N) : (lhsM t).IsWhole := hstage2_0 ((cfg2.slots t 0).cast nbuf2_0)
abbrev rhsM (t : Fin cfg2.N) : Memref sig .tc .vmem S1024x2048 .bf16 := win2_1.stage (cfg2.slots t 1)
abbrev rhsW (t : Fin cfg2.N) : (rhsM t).IsWhole := hstage2_1 ((cfg2.slots t 1).cast nbuf2_1)
abbrev outM (t : Fin cfg2.N) : Memref sig .tc .vmem S2048x1024 .f32 := win2_2.stage (cfg2.slots t 2)
abbrev outW (t : Fin cfg2.N) : (outM t).IsWhole := hstage2_2 ((cfg2.slots t 2).cast nbuf2_2)
/-- The accumulator: a whole scoped buffer of the pass's own. -/
abbrev accM : Memref sig .tc .vmem S2048x1024 .f32 := Memref.whole cc2_scratch0
/-- The views through which the accumulator's and the output buffer's contents are stated. -/
abbrev accV : View sig .tc .vmem S2048x1024 .f32 := accM.view
abbrev outV : View sig .tc .vmem S2048x1024 .f32 := (Memref.whole cc2_stg2_0 : Memref sig .tc .vmem S2048x1024 .f32).view

/-- The other two passes' eight staging buffers, each whole at some contents: held by this pass, never touched. -/
def bystanders (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant is the accumulator at some contents beside the bystanders and the generator register. -/
theorem classInv_open (c : Dev nD) :
    (Pipeline.ΦA spec2 c : sProp 𝕄) ⊢ iprop((∃ d, owns (c : Thread nD τ) accM fullShare d) ∗ bystanders c ∗ (∃ r, prngReg c r)) := by
  unfold Pipeline.ΦA bystanders; rw [scopedRest2_eq]; simp only [owns_whole]
  iintro ⟨⟨H1, H2, H3, H4, H5, H6, H7, H8, HS⟩, Hg⟩
  isplitl [HS]; · iexact HS
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem classInv_close (c : Dev nD) :
    iprop((∃ d, owns (c : Thread nD τ) accM fullShare d) ∗ bystanders c ∗ (∃ r, prngReg c r)) ⊢ (Pipeline.ΦA spec2 c : sProp 𝕄) := by
  unfold Pipeline.ΦA bystanders; rw [scopedRest2_eq]; simp only [owns_whole]
  iintro ⟨HS, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-! ## The body's run in each case -/

set_option maxHeartbeats 1000000 in
/-- AT A FIRST-HALF POINT.  On whole buffers — the two operand blocks at `x0`, `x1`, the output's at `xo`, the
    accumulator's at anything — the body runs without fault and ends with the operands' and the output's unchanged and
    the accumulator's overwritten by the pieces `LS` (last first), which the run itself determines. -/
noncomputable def runFirst (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S2048x1024 .f32) (harg5 : arg5.IsWhole) (arg6 : Memref sig .tc .vmem S2048x1024 .f32) (harg6 : arg6.IsWhole) (hf : atFirst i) (hl : ¬atLast i)
    (x0 : Vec F S2048x2048 .bf16) (x1 : Vec F S1024x2048 .bf16) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- AT A LAST-HALF POINT.  On whole buffers — the operand blocks at `x0`, `x1`, the output's at anything, the
    accumulator's at `xs` (what the point before left) — the body runs without fault and ends with the operands'
    unchanged, the output's overwritten by the pieces `LO` and the accumulator's by `LS`. -/
noncomputable def runLast (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S2048x1024 .f32) (harg5 : arg5.IsWhole) (arg6 : Memref sig .tc .vmem S2048x1024 .f32) (harg6 : arg6.IsWhole) (hf : ¬atFirst i) (hl : atLast i)
    (x0 : Vec F S2048x2048 .bf16) (x1 : Vec F S1024x2048 .bf16) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.Kernel.Frames

end
-- ==== Proof.KernelAcc.lean ====
/-
  The product pass as a pipeline region, second half: what the accumulator and the output block hold after every grid
  point, the invariant that carries the accumulator from a first-half point to the last-half point after it, the proof
  data and the body obligation.  Stated for any float instance and any contents `V` of the core's buffers at entry.

  The points come in pairs (2j, 2j+1) sharing the output block (i, j).  After point 2j the accumulator holds zero plus
  the first half's partial product; after point 2j+1 it holds that plus the second half's, and the output block holds
  the same.  A first-half point never depends on what came before it, so nothing is carried across pairs.
-/
import proofs.«162318_j1176821039703_2_alg».proof.Proof.KernelAccRuns

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pass2
variable (V : (c : Dev nD) → (b : Ref sig .tc) → Buf (Elt F) ((c : Thread nD τ).loc b))

/-- Window `w`'s block at grid point `t`, read off its array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each operand window's staging buffer holds the point's block whenever the body runs. -/
theorem before2_lhs {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_rhs {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the accumulator and the output block hold after each point -/

/-- The point before `t` in the grid's order. -/
def before (t : Fin cfg2.N) : Fin cfg2.N := ⟨t.val - 1, lt_of_le_of_lt (Nat.sub_le _ _) t.isLt⟩

/-- After a first-half point the accumulator holds the pieces that point's run wrote, -/
def firstAcc (c : Dev nD) (t : Fin cfg2.N) (h : t.val % 2 = 0) : Vec F S2048x1024 .f32 :=
  accV.read (Elt F) (accV.writes (Elt F) accV.junk
    (runFirst c (grid2.coords t) (lhsM t) (lhsW t) (rhsM t) (rhsW t) (outM t) (outW t) accM (Memref.isWhole_whole _) ((atFirst_iff t).mpr h) (fun hl => by have := (atLast_iff t).mp hl; omega) (blk2 V c 0 t) (blk2 V c 1 t)).1)

/-- and they cover it. -/
theorem firstAcc_covers (c : Dev nD) (t : Fin cfg2.N) (h : t.val % 2 = 0) (y : S2048x1024.Idx) :
    ∃ pc ∈ (runFirst c (grid2.coords t) (lhsM t) (lhsW t) (rhsM t) (rhsW t) (outM t) (outW t) accM (Memref.isWhole_whole _) ((atFirst_iff t).mpr h) (fun hl => by have := (atLast_iff t).mp hl; omega) (blk2 V c 0 t) (blk2 V c 1 t)).1, y ∈ pc.1.set :=
  View.cover_of_tiledL _ S2048x1024.size (by sl_kernel_rfl) y

theorem before_even (t : Fin cfg2.N) (h : ¬t.val % 2 = 0) : (before t).val % 2 = 0 := by
  show (t.val - 1) % 2 = 0; omega

/-- The run of a last-half point, started from what the first-half point before it left in the accumulator. -/
def lastRun (c : Dev nD) (t : Fin cfg2.N) (h : ¬t.val % 2 = 0) :=
  runLast c (grid2.coords t) (lhsM t) (lhsW t) (rhsM t) (rhsW t) (outM t) (outW t) accM (Memref.isWhole_whole _) (fun hf => h ((atFirst_iff t).mp hf)) ((atLast_iff t).mpr (by omega)) (blk2 V c 0 t) (blk2 V c 1 t)
    (firstAcc V c (before t) (before_even t h))

/-- After it the accumulator and the output block hold the pieces it wrote, which cover them. -/
def lastAcc (c : Dev nD) (t : Fin cfg2.N) (h : ¬t.val % 2 = 0) : Vec F S2048x1024 .f32 :=
  accV.read (Elt F) (accV.writes (Elt F) accV.junk (lastRun V c t h).2.1)
def lastOut (c : Dev nD) (t : Fin cfg2.N) (h : ¬t.val % 2 = 0) : Vec F S2048x1024 .f32 :=
  outV.read (Elt F) (outV.writes (Elt F) outV.junk (lastRun V c t h).1)
theorem lastAcc_covers (c : Dev nD) (t : Fin cfg2.N) (h : ¬t.val % 2 = 0) (y : S2048x1024.Idx) :
    ∃ pc ∈ (lastRun V c t h).2.1, y ∈ pc.1.set :=
  View.cover_of_tiledL _ S2048x1024.size (by unfold lastRun; sl_kernel_rfl) y
theorem lastOut_covers (c : Dev nD) (t : Fin cfg2.N) (h : ¬t.val % 2 = 0) (y : S2048x1024.Idx) :
    ∃ pc ∈ (lastRun V c t h).1, y ∈ pc.1.set :=
  View.cover_of_tiledL _ S2048x1024.size (by unfold lastRun; sl_kernel_rfl) y

/-- The accumulator after position `n` of the grid's order. -/
def accAt (c : Dev nD) (n : ℕ) (hn : n < cfg2.N) : Vec F S2048x1024 .f32 :=
  if h : n % 2 = 0 then firstAcc V c ⟨n, hn⟩ h else lastAcc V c ⟨n, hn⟩ h

/-- The output window's buffer after position `n`: at a last-half point what the body stored; at a first-half point the
    body stores nothing and the buffer is neither written back nor read, so the value named here is never consulted. -/
def outAt (c : Dev nD) (n : ℕ) (hn : n < cfg2.N) : Vec F S2048x1024 .f32 :=
  if h : n % 2 = 0 then outV.read (Elt F) outV.junk else lastOut V c ⟨n, hn⟩ h

/-- The invariant before position `n`: before the first point the class's (the accumulator at anything); afterwards the
    accumulator at what position `n - 1` left, beside the buffers the pass never touches and the generator register. -/
def carried (c : Dev nD) : (n : ℕ) → n ≤ cfg2.N → sProp 𝕄
  | 0, _ => Pipeline.ΦA spec2 c
  | n + 1, hn => iprop(owns (c : Thread nD τ) accM fullShare (accAt V c n hn) ∗ bystanders c ∗ (∃ r, prngReg c r))

/-- At every position the invariant yields the accumulator at SOME contents beside the rest. -/
theorem carried_forget (c : Dev nD) (n : ℕ) (h : n ≤ cfg2.N) :
    carried V c n h ⊢ iprop((∃ d, owns (c : Thread nD τ) accM fullShare d) ∗ bystanders c ∗ (∃ r, prngReg c r)) := by
  cases n with
  | zero => exact classInv_open c
  | succ n =>
    show iprop(owns (c : Thread nD τ) accM fullShare (accAt V c n h) ∗ bystanders c ∗ (∃ r, prngReg c r)) ⊢ _
    iintro ⟨HS, Hb, Hg⟩
    isplitl [HS]; · iexists _; iexact HS
    isplitl [Hb]; · iexact Hb
    iexact Hg

/-- Before a last-half point it holds the accumulator at what the first-half point before left. -/
theorem carried_odd (c : Dev nD) (t : Fin cfg2.N) (h : ¬t.val % 2 = 0) :
    carried V c t.val (Nat.le_of_lt t.isLt)
      = iprop(owns (c : Thread nD τ) accM fullShare (firstAcc V c (before t) (before_even t h)) ∗ bystanders c ∗ (∃ r, prngReg c r)) := by
  obtain ⟨n, hn⟩ := t
  cases n with
  | zero => exact absurd (Nat.zero_mod _) h
  | succ n =>
    show iprop(owns (c : Thread nD τ) accM fullShare (accAt V c n _) ∗ bystanders c ∗ (∃ r, prngReg c r)) = _
    have he : n % 2 = 0 := by have : (n + 1) % 2 ≠ 0 := h; omega
    unfold accAt; rw [dif_pos he]; rfl

/-! ## The proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => outAt V c t.val t.isLt
  Φ t := carried V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_after_lhs (c : Dev nD) (t : Fin cfg2.N) : (dat2 V c).after 0 t = blk2 V c 0 t := by dsimp only [dat2]
theorem dat2_after_rhs (c : Dev nD) (t : Fin cfg2.N) : (dat2 V c).after 1 t = blk2 V c 1 t := by dsimp only [dat2]
theorem dat2_after_out (c : Dev nD) (t : Fin cfg2.N) : (dat2 V c).after 2 t = outAt V c t.val t.isLt := by dsimp only [dat2]
theorem dat2_before_lhs (c : Dev nD) (t : Fin cfg2.N) (d) : (dat2 V c).before 0 t d = blk2 V c 0 t :=
  before2_lhs V (dat2 V c) (dat2_A V c 0) (dat2_after_lhs V c) t d
theorem dat2_before_rhs (c : Dev nD) (t : Fin cfg2.N) (d) : (dat2 V c).before 1 t d = blk2 V c 1 t :=
  before2_rhs V (dat2 V c) (dat2_A V c 1) (dat2_after_rhs V c) t d
theorem dat2_inv_start (c : Dev nD) (t : Fin cfg2.N) : (dat2 V c).Φ t.castSucc = carried V c t.val (Nat.le_of_lt t.isLt) := by
  dsimp only [dat2]; simp only [Fin.coe_castSucc]

/-! ## The body obligation -/

def pre2 (c : Dev nD) (t : Fin cfg2.N) : sProp 𝕄 :=
  iprop((dat2 V c).Φ t.castSucc ∗ (dat2 V c).owesAt () t.castSucc
    ∗ (∃ d, owns (c : Thread nD τ) (lhsM t) fullShare ((dat2 V c).before 0 t d))
    ∗ (∃ d, owns (c : Thread nD τ) (rhsM t) fullShare ((dat2 V c).before 1 t d))
    ∗ (∃ d, owns (c : Thread nD τ) (outM t) fullShare ((dat2 V c).before 2 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point.  At a first-half point the invariant hands over the accumulator at whatever it holds and
    takes it back at what the run wrote, the output's buffer passing through untouched; at a last-half point it hands
    the accumulator over at what the first-half point before left, and both the accumulator and the output's buffer
    come back at what the run wrote. -/
theorem point2_runs (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_lhs, dat2_before_rhs]
  rw [show (dat2 V c).owesAt () t.succ = (dat2 V c).owesAt () t.castSucc from rfl]
  rw [show (dat2 V c).Φ t.succ = iprop(owns (c : Thread nD τ) accM fullShare (accAt V c t.val t.isLt) ∗ bystanders c ∗ (∃ r, prngReg c r)) from rfl]
  rw [show (dat2 V c).leavesExact 0 t = owns (c : Thread nD τ) (lhsM t) fullShare ((dat2 V c).after 0 t) from by
    unfold Dat.leavesExact; rw [live2_0 t], dat2_after_lhs]
  rw [show (dat2 V c).leavesExact 1 t = owns (c : Thread nD τ) (rhsM t) fullShare ((dat2 V c).after 1 t) from by
    unfold Dat.leavesExact; rw [live2_1 t], dat2_after_rhs]
  rw [dat2_inv_start V c t]
  by_cases h0 : t.val % 2 = 0
  · have hf : atFirst (grid2.coords t) := (atFirst_iff t).mpr h0
    have hl : ¬atLast (grid2.coords t) := fun hl => by have := (atLast_iff t).mp hl; omega
    rw [Dat.leavesExact_idle (dat2 V c) 2 t (idle2_2_first t hf hl) (keep2_2_first t hf hl)]
    rw [show accAt V c t.val t.isLt = firstAcc V c t h0 from dif_pos h0]
    unfold firstAcc
    iintro ⟨HΦ, Ho, ⟨%d0, H0⟩, ⟨%d1, H1⟩, ⟨%d2, H2⟩⟩
    ihave HΦ' := (carried_forget V c t.val (Nat.le_of_lt t.isLt)) $$ HΦ
    icases HΦ' with ⟨HS, Hb, Hg⟩
    iapply ((runFirst c (grid2.coords t) _ _ _ _ _ _ _ _ hf hl (blk2 V c 0 t) (blk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hb Hg]
    · isplitl [HS]
      · unfold owns; iexists _; isplitr
        swap; · iexact HS
        ipureintro; exact View.read_writes_of_cover _ _ _ _ _ (firstAcc_covers V c t h0)
      isplitl [Hb]; · iexact Hb
      iexact Hg
    isplitl [Ho]; · iexact Ho
    isplitl [H0]; · iexact H0
    isplitl [H1]; · iexact H1
    iexists _; iexact H2
  · have hf : ¬atFirst (grid2.coords t) := fun hf => h0 ((atFirst_iff t).mp hf)
    have hl : atLast (grid2.coords t) := (atLast_iff t).mpr (by omega)
    rw [show (dat2 V c).leavesExact 2 t = owns (c : Thread nD τ) (outM t) fullShare ((dat2 V c).after 2 t) from by
      unfold Dat.leavesExact; rw [live2_2_last t hf hl], dat2_after_out]
    rw [show accAt V c t.val t.isLt = lastAcc V c t h0 from dif_neg h0,
      show outAt V c t.val t.isLt = lastOut V c t h0 from dif_neg h0]
    rw [carried_odd V c t h0]
    unfold lastAcc lastOut
    iintro ⟨⟨HS, Hb, Hg⟩, Ho, ⟨%d0, H0⟩, ⟨%d1, H1⟩, ⟨%d2, H2⟩⟩
    iapply ((lastRun V c t h0).2.2 Set.univ _)
    isplitl [H0]; · iexact H0
    isplitl [H1]; · iexact H1
    isplitl [H2]; · iexists _; iexact H2
    isplitl [HS]; · iexact HS
    iintro ⟨H0, H1, ⟨%eo, H2⟩, ⟨%es, HS⟩⟩
    isplitl [HS Hb Hg]
    · isplitl [HS]
      · unfold owns; iexists _; isplitr
        swap; · iexact HS
        ipureintro; exact View.read_writes_of_cover _ _ _ _ _ (lastAcc_covers V c t h0)
      isplitl [Hb]; · iexact Hb
      iexact Hg
    isplitl [Ho]; · iexact Ho
    isplitl [H0]; · iexact H0
    isplitl [H1]; · iexact H1
    unfold owns; iexists _; isplitr
    swap; · iexact H2
    ipureintro; exact View.read_writes_of_cover _ _ _ _ _ (lastOut_covers V c t h0)

/-- The body obligation of the pipeline library, at every point. -/
theorem obligation2 (c : Dev nD) : BodyObligation (dat2 (F := F) V c) (defs₀ (F := F)) Variants.none () Set.univ := fun t => by
  rw [bigSep_W2, bigSep_W2]
  exact point2_runs V c t

/-- What the region is entered with is the invariant before the first point, -/
theorem inv2_in (c : Dev nD) : Pipeline.ΦA spec2 c ⊢ (dat2 V c).Φ 0 := by
  rw [show (dat2 V c).Φ 0 = Pipeline.ΦA spec2 c from rfl]

/-- and after the last point the invariant gives the class's back, the accumulator's contents forgotten. -/
theorem inv2_out (c : Dev nD) : (dat2 V c).Φ (Fin.last cfg2.N) ⊢ Pipeline.ΦA spec2 c := by
  show carried V c (Fin.last cfg2.N).val _ ⊢ _
  exact (carried_forget V c _ _).trans (classInv_close c)

end Pass2

end Cert.Kernel.Frames

end
-- ==== Proof.KernelRun.lean ====
/-
  The whole program's run: its three passes one after the other, with no host operation between them.  The core's
  unscoped buffers are named at every boundary — as launched, then after each pass its output array at what the pass's
  write-backs leave and everything else unchanged — and the run ends with every unscoped buffer at the last of these.
  Read at the argument arrays this is the frame; read at the result array it is what the value claim starts from.
-/
import proofs.«162318_j1176821039703_2_alg».proof.Proof.KernelQuant
import proofs.«162318_j1176821039703_2_alg».proof.Proof.KernelAcc

set_option maxRecDepth 16384

noncomputable section

namespace Cert.Kernel.Frames

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After pass 0: its arrays at what its write-backs leave (the input as entered, the output's blocks folded in), every
    other buffer as before. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references. -/
abbrev E1 : (c : Dev nD) → (b : Ref sig .tc) → Buf (Elt F) ((c : Thread nD τ).loc b) := fun c b => B1 m c b
theorem left0_arr (c : Dev nD) (w : Fin cfg0.W) : (dat0 (E0 m) c).arrAt w cfg0.N = E1 m c (Pipeline.arrRef spec0 w) :=
  (B1_arr m c w).symm
theorem left0_rest (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After pass 1: its arrays at what its write-backs leave (the input as entered, the output's blocks folded in), every
    other buffer as before. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references. -/
abbrev E2 : (c : Dev nD) → (b : Ref sig .tc) → Buf (Elt F) ((c : Thread nD τ).loc b) := fun c b => B2 m c b
theorem left1_arr (c : Dev nD) (w : Fin cfg1.W) : (dat1 (E1 m) c).arrAt w cfg1.N = E2 m c (Pipeline.arrRef spec1 w) :=
  (B2_arr m c w).symm
theorem left1_rest (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After pass 2: its arrays at what its write-backs leave (the input as entered, the output's blocks folded in), every
    other buffer as before. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references. -/
abbrev E3 : (c : Dev nD) → (b : Ref sig .tc) → Buf (Elt F) ((c : Thread nD τ).loc b) := fun c b => B3 m c b
theorem left2_arr (c : Dev nD) (w : Fin cfg2.W) : (dat2 (E2 m) c).arrAt w cfg2.N = E3 m c (Pipeline.arrRef spec2 w) :=
  (B3_arr m c w).symm
theorem left2_rest (c : Dev nD) : ∀ b, b ∉ Finset.univ.image (Pipeline.arrRef spec2) → E3 m c b = E2 m c b :=
  fun b hb => B3_of_ne m c b fun w e => hb (Finset.mem_image.mpr ⟨w, Finset.mem_univ _, e⟩)

/-! ## The arguments end as launched: no pass writes one -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := (B1_arr m c 0).trans (((dat0 (E0 m) c).arrAt_in 0 rfl _).trans (dat0_A (E0 m) c 0))
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat1 (E1 m) c).arrAt_in 0 rfl _).trans (dat1_A (E1 m) c 0))
    _ = B0 m c (Proc.devRef .tc main_arg1) := B1_of_ne m c main_arg1 (by decide)
    _ = m ((c : Thread nD τ).loc main_arg1) := rfl

/-! ## The proof data family and the thread state -/

/-- No pipeline has a prefetched table. -/
abbrev adm : (p : Fin 3) → (pcfgs (F := F) p).Adm := fun p => (cfgs p).toPCfg_adm
/-- Every pass's proof data, each at its entry contents: a literal match on the pipeline's number. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every pass: the generator register at some state, and nothing owed. -/
abbrev riding (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev atEnd (c : Dev nD) : sProp 𝕄 := iprop(StableHlo.held (c : Thread nD τ) (Pipeline.ucRefs τ sig) (B3 m c) ∗ ∃ r, prngReg c r)

/-! ## The passes as segments -/

set_option backward.isDefEq.respectTransparency.types false in
/-- Pass 0 over the thread state: entered with every unscoped buffer at `B0`, left with them at `B1`.  Its arrays
    are split out of the unscoped buffers at entry and put back at their final contents at exit; the generator
    register goes into the pass's invariant and comes back; nothing is owed; the kernel has no semaphore of its own. -/
def pass0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (B0 m c) ∗ riding c)
  post c := iprop(StableHlo.held (c : Thread nD τ) (Pipeline.ucRefs τ sig) (B1 m c) ∗ riding c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered with every unscoped buffer at `B1`, left with them at `B2`.  Its arrays
    are split out of the unscoped buffers at entry and put back at their final contents at exit; the generator
    register goes into the pass's invariant and comes back; nothing is owed; the kernel has no semaphore of its own. -/
def pass1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (B1 m c) ∗ riding c)
  post c := iprop(StableHlo.held (c : Thread nD τ) (Pipeline.ucRefs τ sig) (B2 m c) ∗ riding c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered with every unscoped buffer at `B2`, left with them at `B3`.  Its arrays
    are split out of the unscoped buffers at entry and put back at their final contents at exit; the generator
    register goes into the pass's invariant and comes back; nothing is owed; the kernel has no semaphore of its own. -/
def pass2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L lv 2 fun _ _ => rfl
  pre c := iprop(StableHlo.held (c : Thread nD τ) (Pipeline.ucRefs τ sig) (B2 m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (inv2_out (E2 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (left2_arr m c) (left2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (pass0 m), .region (pass1 m), .region (pass2 m) ]

theorem main_is_segs (c : Dev nD) : main (F := F) c = Pipeline.Seg.run (segs m) := (main_chain c).trans (by chain_rfl)

set_option backward.isDefEq.respectTransparency.types false in
/-- THE RUN.  From any memory with zero counters every weakly fair execution of the program terminates without fault,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ riding c)) (Tₙ := atEnd m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the program runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.Kernel.Frames

end
-- ==== Proof.KernelIdealQuant.lean ====
/-
  The two group-wise rounding passes of the program as pipeline regions: for each, what a grid point's body leaves in
  its output block as a function of its input block, that the body runs without fault, and the proof data and body
  obligation the pipeline library asks for.  Stated for any float instance and for any contents `V` of the core's
  buffers at the pass's entry.
-/
import proofs.«162318_j1176821039703_2_alg».proof.Proof.Gen.KernelIdeal.Launch
import proofs.«162318_j1176821039703_2_alg».proof.Proof.Gen.KernelIdeal.Skeleton
import proofs.«162318_j1176821039703_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The group-wise rounding pass over the activations (pipeline 0), entered with the core's buffers at `V`

One grid point handles 1024 whole rows: the input window's block is rows 1024·t … 1024·t+1023 of the array, and the
output window's block is the same rows of the result.  The body reads the input block whole, computes the rounded
block from it alone, and stores it whole; nothing is carried from point to point. -/

section Pass0
variable (V : (c : Dev nD) → (b : Ref sig .tc) → Buf (Elt F) ((c : Thread nD τ).loc b))

/-- Window `w`'s block at grid point `t`, read off its array as the pass finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's staging buffer holds the point's block whenever the body runs: the window is fetched at every
    point, is never cut and never idle, and the body leaves the block in place. -/
theorem before0_in {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)

/-- The one rectangle the body reads and writes through: the whole 1024 × 4096 block. -/
abbrev whole0 : Rect S1024x4096 := Rect.unit (s := S1024x4096) ![0, 0] S1024x4096.size inb_S1024x4096_S1024x4096_0_0

/-- What the body leaves in the output window's buffer: its single whole-block store of the rounded block. -/
def rounded0 (x0 : Vec F S1024x4096 .f32) : Vec F S1024x4096 .bf16 :=
  View.canon [⟨whole0, k0_pay1 (View.ld x0 whole0)⟩]

/-- That store covers the buffer. -/
theorem covers0 (p0 : Vec F S1024x4096 .bf16) (y : S1024x4096.Idx) :
    ∃ pc ∈ ([⟨whole0, p0⟩] : List (View.Piece (Elt F) S1024x4096 .bf16)), y ∈ pc.1.set :=
  View.cover_of_tiled [⟨whole0, p0⟩] S1024x4096.size (by rfl) y

set_option maxHeartbeats 1000000 in
/-- The body on whole staging buffers — the input's holding `x0`, the output's anything — runs without fault and
    ends with the input's unchanged and the output's holding the rounded block of `x0`. -/
theorem body0_runs (c : Dev nD) (E : Set ℕ) (i : grid0.Coords) (arg1 : Memref sig .tc .vmem S1024x4096 .f32) (harg1 : arg1.IsWhole)
    (arg2 : Memref sig .tc .vmem S1024x4096 .bf16) (harg2 : arg2.IsWhole)
    (x0 : Vec F S1024x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rounded0 x0)) -∗ K ⟨⟩))
      ⊢ wp frame (wpE (defs₀ (F := F)) Variants.none c none) E (cc0__quantize_kernel i arg1 harg1 arg2 harg2) K := by
  simp only [cc0__quantize_kernel_eq_skeleton]; unfold cc0__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers0 _)

/-- The pass's proof data on core `c`: the arrays as found; after the body the input's buffer still at its block and the
    output's at the rounded block; the invariant only the scoped rest and the generator register, untouched; nothing
    owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => rounded0 (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after_in (c : Dev nD) (t : Fin cfg0.N) : (dat0 V c).after 0 t = blk0 V c 0 t := by dsimp only [dat0]
theorem dat0_after_out (c : Dev nD) (t : Fin cfg0.N) : (dat0 V c).after 1 t = rounded0 (blk0 V c 0 t) := by dsimp only [dat0]
theorem dat0_before_in (c : Dev nD) (t : Fin cfg0.N) (d) : (dat0 V c).before 0 t d = blk0 V c 0 t :=
  before0_in V (dat0 V c) (dat0_A V c 0) (dat0_after_in V c) t d

/-- What the body is called with at point `t`, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t))

/-- The body at any point: the input's buffer holds the point's block, so the run above applies; the invariant and what
    the core owes pass through unread. -/
theorem point0_runs (c : Dev nD) (t : Fin cfg0.N) :
    pre0 V c t ⊢ wp frame (wpE (defs₀ (F := F)) Variants.none c none) Set.univ (bodyAt0 t) (fun _ => post0 V c t) := by
  unfold pre0 post0 bodyAt0
  simp only [dat0_before_in]
  rw [show (dat0 V c).Φ t.succ = (dat0 V c).Φ t.castSucc from rfl,
    show (dat0 V c).owesAt () t.succ = (dat0 V c).owesAt () t.castSucc from rfl,
    dat0_after_in, dat0_after_out]
  iintro ⟨HΦ, Ho, ⟨%d0, H0⟩, ⟨%d1, H1⟩⟩
  iapply (body0_runs c Set.univ _ _ _ _ _ (blk0 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every point. -/
theorem obligation0 (c : Dev nD) : BodyObligation (dat0 (F := F) V c) (defs₀ (F := F)) Variants.none () Set.univ := fun t => by
  rw [bigSep_W0, bigSep_W0]
  exact point0_runs V c t

end Pass0

/-! # The group-wise rounding pass over the weights (pipeline 1), entered with the core's buffers at `V`

One grid point handles 1024 whole rows: the input window's block is rows 1024·t … 1024·t+1023 of the array, and the
output window's block is the same rows of the result.  The body reads the input block whole, computes the rounded
block from it alone, and stores it whole; nothing is carried from point to point. -/

section Pass1
variable (V : (c : Dev nD) → (b : Ref sig .tc) → Buf (Elt F) ((c : Thread nD τ).loc b))

/-- Window `w`'s block at grid point `t`, read off its array as the pass finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's staging buffer holds the point's block whenever the body runs: the window is fetched at every
    point, is never cut and never idle, and the body leaves the block in place. -/
theorem before1_in {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)

/-- The one rectangle the body reads and writes through: the whole 1024 × 4096 block. -/
abbrev whole1 : Rect S1024x4096 := Rect.unit (s := S1024x4096) ![0, 0] S1024x4096.size inb_S1024x4096_S1024x4096_0_0

/-- What the body leaves in the output window's buffer: its single whole-block store of the rounded block. -/
def rounded1 (x0 : Vec F S1024x4096 .f32) : Vec F S1024x4096 .bf16 :=
  View.canon [⟨whole1, k1_pay1 (View.ld x0 whole1)⟩]

/-- That store covers the buffer. -/
theorem covers1 (p0 : Vec F S1024x4096 .bf16) (y : S1024x4096.Idx) :
    ∃ pc ∈ ([⟨whole1, p0⟩] : List (View.Piece (Elt F) S1024x4096 .bf16)), y ∈ pc.1.set :=
  View.cover_of_tiled [⟨whole1, p0⟩] S1024x4096.size (by rfl) y

set_option maxHeartbeats 1000000 in
/-- The body on whole staging buffers — the input's holding `x0`, the output's anything — runs without fault and
    ends with the input's unchanged and the output's holding the rounded block of `x0`. -/
theorem body1_runs (c : Dev nD) (E : Set ℕ) (i : grid1.Coords) (arg1 : Memref sig .tc .vmem S1024x4096 .f32) (harg1 : arg1.IsWhole)
    (arg2 : Memref sig .tc .vmem S1024x4096 .bf16) (harg2 : arg2.IsWhole)
    (x0 : Vec F S1024x4096 .f32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (rounded1 x0)) -∗ K ⟨⟩))
      ⊢ wp frame (wpE (defs₀ (F := F)) Variants.none c none) E (cc1__quantize_kernel i arg1 harg1 arg2 harg2) K := by
  simp only [cc1__quantize_kernel_eq_skeleton]; unfold cc1__quantize_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (covers1 _)

/-- The pass's proof data on core `c`: the arrays as found; after the body the input's buffer still at its block and the
    output's at the rounded block; the invariant only the scoped rest and the generator register, untouched; nothing
    owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => rounded1 (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after_in (c : Dev nD) (t : Fin cfg1.N) : (dat1 V c).after 0 t = blk1 V c 0 t := by dsimp only [dat1]
theorem dat1_after_out (c : Dev nD) (t : Fin cfg1.N) : (dat1 V c).after 1 t = rounded1 (blk1 V c 0 t) := by dsimp only [dat1]
theorem dat1_before_in (c : Dev nD) (t : Fin cfg1.N) (d) : (dat1 V c).before 0 t d = blk1 V c 0 t :=
  before1_in V (dat1 V c) (dat1_A V c 0) (dat1_after_in V c) t d

/-- What the body is called with at point `t`, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at any point: the input's buffer holds the point's block, so the run above applies; the invariant and what
    the core owes pass through unread. -/
theorem point1_runs (c : Dev nD) (t : Fin cfg1.N) :
    pre1 V c t ⊢ wp frame (wpE (defs₀ (F := F)) Variants.none c none) Set.univ (bodyAt1 t) (fun _ => post1 V c t) := by
  unfold pre1 post1 bodyAt1
  simp only [dat1_before_in]
  rw [show (dat1 V c).Φ t.succ = (dat1 V c).Φ t.castSucc from rfl,
    show (dat1 V c).owesAt () t.succ = (dat1 V c).owesAt () t.castSucc from rfl,
    dat1_after_in, dat1_after_out]
  iintro ⟨HΦ, Ho, ⟨%d0, H0⟩, ⟨%d1, H1⟩⟩
  iapply (body1_runs c Set.univ _ _ _ _ _ (blk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body obligation of the pipeline library, at every point. -/
theorem obligation1 (c : Dev nD) : BodyObligation (dat1 (F := F) V c) (defs₀ (F := F)) Variants.none () Set.univ := fun t => by
  rw [bigSep_W1, bigSep_W1]
  exact point1_runs V c t

end Pass1

end Cert.KernelIdeal.Frames

end
-- ==== Proof.KernelIdealAccRuns.lean ====
/-
  The product pass as a pipeline region, first half: its grid is 4 × 4 × 2, the last coordinate stepping along the
  contracted axis in two halves.  The body zeroes its accumulator where that coordinate is 0, adds the half's partial
  product to the accumulator at every point, and copies the accumulator to the output block where the coordinate is 1.
  Here: the two conditions decided over the grid, where the output window is idle, the accumulator singled out of the
  buffers the pass holds, and the body's run in each of the two cases the grid meets.
-/
import proofs.«162318_j1176821039703_2_alg».proof.Proof.Gen.KernelIdeal.Launch
import proofs.«162318_j1176821039703_2_alg».proof.Proof.Gen.KernelIdeal.Skeleton
import proofs.«162318_j1176821039703_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The two conditions over the grid -/

/-- "The contracted axis is at its first half": the body's first test, from the grid coordinates. -/
abbrev atFirst (i : grid2.Coords) : Prop := (Scalar.cmpi .ne (Scalar.extui (Scalar.cmpi .eq (BitVec.ofNat 32 (i 2).val) 0#32)) 0#32) = 1#1
/-- It holds at the even points of the grid's order. -/
theorem atFirst_iff : ∀ t : Fin cfg2.N, atFirst (grid2.coords t) ↔ t.val % 2 = 0 :=
  (by decide +kernel : ∀ t : Fin grid2.N, atFirst (grid2.coords t) ↔ t.val % 2 = 0)

/-- "The contracted axis is at its last half": the body's second test. -/
abbrev atLast (i : grid2.Coords) : Prop := k2_cond2 i = 1#1
/-- It holds at the odd points. -/
theorem atLast_iff : ∀ t : Fin cfg2.N, atLast (grid2.coords t) ↔ t.val % 2 = 1 :=
  (by decide +kernel : ∀ t : Fin grid2.N, atLast (grid2.coords t) ↔ t.val % 2 = 1)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
/-- At a first-half point the body stores nothing into the output window, -/
theorem idle2_2_first : ∀ t : Fin cfg2.N, atFirst (grid2.coords t) → ¬atLast (grid2.coords t) → cfg2.idle 2 (grid2.coords t) = true := by decide +kernel
/-- and the pipeline does not write the window's block back there. -/
theorem keep2_2_first : ∀ t : Fin cfg2.N, atFirst (grid2.coords t) → ¬atLast (grid2.coords t) → (cfg2.win 2).flush t = false := by decide +kernel
/-- At a last-half point the body stores the output block. -/
theorem live2_2_last : ∀ t : Fin cfg2.N, ¬atFirst (grid2.coords t) → atLast (grid2.coords t) → cfg2.idle 2 (grid2.coords t) = false := by decide +kernel

/-! ## The buffers the body is called on -/

abbrev lhsM (t : Fin cfg2.N) : Memref sig .tc .vmem S2048x2048 .bf16 := win2_0.stage (cfg2.slots t 0)
abbrev lhsW (t : Fin cfg2.N) : (lhsM t).IsWhole := hstage2_0 ((cfg2.slots t 0).cast nbuf2_0)
abbrev rhsM (t : Fin cfg2.N) : Memref sig .tc .vmem S1024x2048 .bf16 := win2_1.stage (cfg2.slots t 1)
abbrev rhsW (t : Fin cfg2.N) : (rhsM t).IsWhole := hstage2_1 ((cfg2.slots t 1).cast nbuf2_1)
abbrev outM (t : Fin cfg2.N) : Memref sig .tc .vmem S2048x1024 .f32 := win2_2.stage (cfg2.slots t 2)
abbrev outW (t : Fin cfg2.N) : (outM t).IsWhole := hstage2_2 ((cfg2.slots t 2).cast nbuf2_2)
/-- The accumulator: a whole scoped buffer of the pass's own. -/
abbrev accM : Memref sig .tc .vmem S2048x1024 .f32 := Memref.whole cc2_scratch0
/-- The views through which the accumulator's and the output buffer's contents are stated. -/
abbrev accV : View sig .tc .vmem S2048x1024 .f32 := accM.view
abbrev outV : View sig .tc .vmem S2048x1024 .f32 := (Memref.whole cc2_stg2_0 : Memref sig .tc .vmem S2048x1024 .f32).view

/-- The other two passes' eight staging buffers, each whole at some contents: held by this pass, never touched. -/
def bystanders (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f))

/-- The class invariant is the accumulator at some contents beside the bystanders and the generator register. -/
theorem classInv_open (c : Dev nD) :
    (Pipeline.ΦA spec2 c : sProp 𝕄) ⊢ iprop((∃ d, owns (c : Thread nD τ) accM fullShare d) ∗ bystanders c ∗ (∃ r, prngReg c r)) := by
  unfold Pipeline.ΦA bystanders; rw [scopedRest2_eq]; simp only [owns_whole]
  iintro ⟨⟨H1, H2, H3, H4, H5, H6, H7, H8, HS⟩, Hg⟩
  isplitl [HS]; · iexact HS
  isplitl [H1 H2 H3 H4 H5 H6 H7 H8]
  · isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  iexact Hg

theorem classInv_close (c : Dev nD) :
    iprop((∃ d, owns (c : Thread nD τ) accM fullShare d) ∗ bystanders c ∗ (∃ r, prngReg c r)) ⊢ (Pipeline.ΦA spec2 c : sProp 𝕄) := by
  unfold Pipeline.ΦA bystanders; rw [scopedRest2_eq]; simp only [owns_whole]
  iintro ⟨HS, ⟨H1, H2, H3, H4, H5, H6, H7, H8⟩, Hg⟩
  isplitr [Hg]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact HS
  iexact Hg

/-! ## The body's run in each case -/

set_option maxHeartbeats 1000000 in
/-- AT A FIRST-HALF POINT.  On whole buffers — the two operand blocks at `x0`, `x1`, the output's at `xo`, the
    accumulator's at anything — the body runs without fault and ends with the operands' and the output's unchanged and
    the accumulator's overwritten by the pieces `LS` (last first), which the run itself determines. -/
noncomputable def runFirst (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S2048x1024 .f32) (harg5 : arg5.IsWhole) (arg6 : Memref sig .tc .vmem S2048x1024 .f32) (harg6 : arg6.IsWhole) (hf : atFirst i) (hl : ¬atLast i)
    (x0 : Vec F S2048x2048 .bf16) (x1 : Vec F S1024x2048 .bf16) :
    { LS : List (View.Piece (Elt F) S2048x1024 .f32) //
      ∀ (xo : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare xo ∗ (∃ d, owns (c : Thread nD τ) arg6 fullShare d)
            ∗ (iprop(owns (c : Thread nD τ) arg3 fullShare x0 ∗ owns (c : Thread nD τ) arg4 fullShare x1 ∗ owns (c : Thread nD τ) arg5 fullShare xo ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, fun xo E K => ?run⟩
  case run =>
    simp only [cc2__matmul_kernel_eq_skeleton]; unfold cc2__matmul_kernel_skel
    unfold owns
    iintro ⟨⟨%f0, %hf0, H0⟩, ⟨%f1, %hf1, H1⟩, ⟨%f2, %hf2, H2⟩, ⟨%ds, %fs, -, HS⟩, Hk⟩
    obtain rfl := harg3.eq_unread hf0; obtain rfl := harg4.eq_unread hf1; obtain rfl := harg5.eq_unread hf2
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact HS

set_option maxHeartbeats 1000000 in
/-- AT A LAST-HALF POINT.  On whole buffers — the operand blocks at `x0`, `x1`, the output's at anything, the
    accumulator's at `xs` (what the point before left) — the body runs without fault and ends with the operands'
    unchanged, the output's overwritten by the pieces `LO` and the accumulator's by `LS`. -/
noncomputable def runLast (c : Dev nD) (i : grid2.Coords) (arg3 : Memref sig .tc .vmem S2048x2048 .bf16) (harg3 : arg3.IsWhole) (arg4 : Memref sig .tc .vmem S1024x2048 .bf16) (harg4 : arg4.IsWhole) (arg5 : Memref sig .tc .vmem S2048x1024 .f32) (harg5 : arg5.IsWhole) (arg6 : Memref sig .tc .vmem S2048x1024 .f32) (harg6 : arg6.IsWhole) (hf : ¬atFirst i) (hl : atLast i)
    (x0 : Vec F S2048x2048 .bf16) (x1 : Vec F S1024x2048 .bf16) (xs : Vec F S2048x1024 .f32) :
    Σ' (LO : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ (∃ d, owns (c : Thread nD τ) arg5 fullShare d) ∗ owns (c : Thread nD τ) arg6 fullShare xs
            ∗ (iprop(owns (c : Thread nD τ) arg3 fullShare x0 ∗ owns (c : Thread nD τ) arg4 fullShare x1 ∗ (∃ f, arg5.view.loc (c : Thread nD τ) ↦[arg5.view.set]{fullShare} arg5.view.writes (Elt F) f LO) ∗ (∃ f, arg6.view.loc (c : Thread nD τ) ↦[arg6.view.set]{fullShare} arg6.view.writes (Elt F) f LS)) -∗ K ⟨⟩))
          ⊢ wp frame (wpE (defs₀ (F := F)) Variants.none c none) E (cc2__matmul_kernel i arg3 harg3 arg4 harg4 arg5 harg5 arg6 harg6) K } := by
  refine ⟨?_, ?_, fun E K => ?run⟩
  case run =>
    simp only [cc2__matmul_kernel_eq_skeleton]; unfold cc2__matmul_kernel_skel
    unfold owns
    iintro ⟨⟨%f0, %hf0, H0⟩, ⟨%f1, %hf1, H1⟩, ⟨%d2, %f2, -, H2⟩, ⟨%fs, %hfs, HS⟩, Hk⟩
    obtain rfl := harg3.eq_unread hf0; obtain rfl := harg4.eq_unread hf1; obtain rfl := harg6.eq_unread hfs
    sl_exec (disch := first | exact hf | exact hl)
    sl_step
    iapply Hk
    isplitl [H0]
    · iexists _; isplitr; · ipureintro; exact harg3.read_unread _
      iexact H0
    isplitl [H1]
    · iexists _; isplitr; · ipureintro; exact harg4.read_unread _
      iexact H1
    isplitl [H2]; · iexists _; iexact H2
    iexists _; iexact HS

end Cert.KernelIdeal.Frames

end
-- ==== Proof.KernelIdealAcc.lean ====
/-
  The product pass as a pipeline region, second half: what the accumulator and the output block hold after every grid
  point, the invariant that carries the accumulator from a first-half point to the last-half point after it, the proof
  data and the body obligation.  Stated for any float instance and any contents `V` of the core's buffers at entry.

  The points come in pairs (2j, 2j+1) sharing the output block (i, j).  After point 2j the accumulator holds zero plus
  the first half's partial product; after point 2j+1 it holds that plus the second half's, and the output block holds
  the same.  A first-half point never depends on what came before it, so nothing is carried across pairs.
-/
import proofs.«162318_j1176821039703_2_alg».proof.Proof.KernelIdealAccRuns

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Pass2
variable (V : (c : Dev nD) → (b : Ref sig .tc) → Buf (Elt F) ((c : Thread nD τ).loc b))

/-- Window `w`'s block at grid point `t`, read off its array as the pass finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Each operand window's staging buffer holds the point's block whenever the body runs. -/
theorem before2_lhs {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem before2_rhs {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)

/-! ## What the accumulator and the output block hold after each point -/

/-- The point before `t` in the grid's order. -/
def before (t : Fin cfg2.N) : Fin cfg2.N := ⟨t.val - 1, lt_of_le_of_lt (Nat.sub_le _ _) t.isLt⟩

/-- After a first-half point the accumulator holds the pieces that point's run wrote, -/
def firstAcc (c : Dev nD) (t : Fin cfg2.N) (h : t.val % 2 = 0) : Vec F S2048x1024 .f32 :=
  accV.read (Elt F) (accV.writes (Elt F) accV.junk
    (runFirst c (grid2.coords t) (lhsM t) (lhsW t) (rhsM t) (rhsW t) (outM t) (outW t) accM (Memref.isWhole_whole _) ((atFirst_iff t).mpr h) (fun hl => by have := (atLast_iff t).mp hl; omega) (blk2 V c 0 t) (blk2 V c 1 t)).1)

/-- and they cover it. -/
theorem firstAcc_covers (c : Dev nD) (t : Fin cfg2.N) (h : t.val % 2 = 0) (y : S2048x1024.Idx) :
    ∃ pc ∈ (runFirst c (grid2.coords t) (lhsM t) (lhsW t) (rhsM t) (rhsW t) (outM t) (outW t) accM (Memref.isWhole_whole _) ((atFirst_iff t).mpr h) (fun hl => by have := (atLast_iff t).mp hl; omega) (blk2 V c 0 t) (blk2 V c 1 t)).1, y ∈ pc.1.set :=
  View.cover_of_tiledL _ S2048x1024.size (by sl_kernel_rfl) y

theorem before_even (t : Fin cfg2.N) (h : ¬t.val % 2 = 0) : (before t).val % 2 = 0 := by
  show (t.val - 1) % 2 = 0; omega

/-- The run of a last-half point, started from what the first-half point before it left in the accumulator. -/
def lastRun (c : Dev nD) (t : Fin cfg2.N) (h : ¬t.val % 2 = 0) :=
  runLast c (grid2.coords t) (lhsM t) (lhsW t) (rhsM t) (rhsW t) (outM t) (outW t) accM (Memref.isWhole_whole _) (fun hf => h ((atFirst_iff t).mp hf)) ((atLast_iff t).mpr (by omega)) (blk2 V c 0 t) (blk2 V c 1 t)
    (firstAcc V c (before t) (before_even t h))

/-- After it the accumulator and the output block hold the pieces it wrote, which cover them. -/
def lastAcc (c : Dev nD) (t : Fin cfg2.N) (h : ¬t.val % 2 = 0) : Vec F S2048x1024 .f32 :=
  accV.read (Elt F) (accV.writes (Elt F) accV.junk (lastRun V c t h).2.1)
def lastOut (c : Dev nD) (t : Fin cfg2.N) (h : ¬t.val % 2 = 0) : Vec F S2048x1024 .f32 :=
  outV.read (Elt F) (outV.writes (Elt F) outV.junk (lastRun V c t h).1)
theorem lastAcc_covers (c : Dev nD) (t : Fin cfg2.N) (h : ¬t.val % 2 = 0) (y : S2048x1024.Idx) :
    ∃ pc ∈ (lastRun V c t h).2.1, y ∈ pc.1.set :=
  View.cover_of_tiledL _ S2048x1024.size (by unfold lastRun; sl_kernel_rfl) y
theorem lastOut_covers (c : Dev nD) (t : Fin cfg2.N) (h : ¬t.val % 2 = 0) (y : S2048x1024.Idx) :
    ∃ pc ∈ (lastRun V c t h).1, y ∈ pc.1.set :=
  View.cover_of_tiledL _ S2048x1024.size (by unfold lastRun; sl_kernel_rfl) y

/-- The accumulator after position `n` of the grid's order. -/
def accAt (c : Dev nD) (n : ℕ) (hn : n < cfg2.N) : Vec F S2048x1024 .f32 :=
  if h : n % 2 = 0 then firstAcc V c ⟨n, hn⟩ h else lastAcc V c ⟨n, hn⟩ h

/-- The output window's buffer after position `n`: at a last-half point what the body stored; at a first-half point the
    body stores nothing and the buffer is neither written back nor read, so the value named here is never consulted. -/
def outAt (c : Dev nD) (n : ℕ) (hn : n < cfg2.N) : Vec F S2048x1024 .f32 :=
  if h : n % 2 = 0 then outV.read (Elt F) outV.junk else lastOut V c ⟨n, hn⟩ h

/-- The invariant before position `n`: before the first point the class's (the accumulator at anything); afterwards the
    accumulator at what position `n - 1` left, beside the buffers the pass never touches and the generator register. -/
def carried (c : Dev nD) : (n : ℕ) → n ≤ cfg2.N → sProp 𝕄
  | 0, _ => Pipeline.ΦA spec2 c
  | n + 1, hn => iprop(owns (c : Thread nD τ) accM fullShare (accAt V c n hn) ∗ bystanders c ∗ (∃ r, prngReg c r))

/-- At every position the invariant yields the accumulator at SOME contents beside the rest. -/
theorem carried_forget (c : Dev nD) (n : ℕ) (h : n ≤ cfg2.N) :
    carried V c n h ⊢ iprop((∃ d, owns (c : Thread nD τ) accM fullShare d) ∗ bystanders c ∗ (∃ r, prngReg c r)) := by
  cases n with
  | zero => exact classInv_open c
  | succ n =>
    show iprop(owns (c : Thread nD τ) accM fullShare (accAt V c n h) ∗ bystanders c ∗ (∃ r, prngReg c r)) ⊢ _
    iintro ⟨HS, Hb, Hg⟩
    isplitl [HS]; · iexists _; iexact HS
    isplitl [Hb]; · iexact Hb
    iexact Hg

/-- Before a last-half point it holds the accumulator at what the first-half point before left. -/
theorem carried_odd (c : Dev nD) (t : Fin cfg2.N) (h : ¬t.val % 2 = 0) :
    carried V c t.val (Nat.le_of_lt t.isLt)
      = iprop(owns (c : Thread nD τ) accM fullShare (firstAcc V c (before t) (before_even t h)) ∗ bystanders c ∗ (∃ r, prngReg c r)) := by
  obtain ⟨n, hn⟩ := t
  cases n with
  | zero => exact absurd (Nat.zero_mod _) h
  | succ n =>
    show iprop(owns (c : Thread nD τ) accM fullShare (accAt V c n _) ∗ bystanders c ∗ (∃ r, prngReg c r)) = _
    have he : n % 2 = 0 := by have : (n + 1) % 2 ≠ 0 := h; omega
    unfold accAt; rw [dif_pos he]; rfl

/-! ## The proof data -/

def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => outAt V c t.val t.isLt
  Φ t := carried V c t.val (Nat.le_of_lt_succ t.isLt)
  q _ := fullShare
  owed _ := 0

theorem dat2_A (c : Dev nD) (w : Fin cfg2.W) : (dat2 V c).A w = V c (Pipeline.arrRef spec2 w) := by dsimp only [dat2]
theorem dat2_after_lhs (c : Dev nD) (t : Fin cfg2.N) : (dat2 V c).after 0 t = blk2 V c 0 t := by dsimp only [dat2]
theorem dat2_after_rhs (c : Dev nD) (t : Fin cfg2.N) : (dat2 V c).after 1 t = blk2 V c 1 t := by dsimp only [dat2]
theorem dat2_after_out (c : Dev nD) (t : Fin cfg2.N) : (dat2 V c).after 2 t = outAt V c t.val t.isLt := by dsimp only [dat2]
theorem dat2_before_lhs (c : Dev nD) (t : Fin cfg2.N) (d) : (dat2 V c).before 0 t d = blk2 V c 0 t :=
  before2_lhs V (dat2 V c) (dat2_A V c 0) (dat2_after_lhs V c) t d
theorem dat2_before_rhs (c : Dev nD) (t : Fin cfg2.N) (d) : (dat2 V c).before 1 t d = blk2 V c 1 t :=
  before2_rhs V (dat2 V c) (dat2_A V c 1) (dat2_after_rhs V c) t d
theorem dat2_inv_start (c : Dev nD) (t : Fin cfg2.N) : (dat2 V c).Φ t.castSucc = carried V c t.val (Nat.le_of_lt t.isLt) := by
  dsimp only [dat2]; simp only [Fin.coe_castSucc]

/-! ## The body obligation -/

def pre2 (c : Dev nD) (t : Fin cfg2.N) : sProp 𝕄 :=
  iprop((dat2 V c).Φ t.castSucc ∗ (dat2 V c).owesAt () t.castSucc
    ∗ (∃ d, owns (c : Thread nD τ) (lhsM t) fullShare ((dat2 V c).before 0 t d))
    ∗ (∃ d, owns (c : Thread nD τ) (rhsM t) fullShare ((dat2 V c).before 1 t d))
    ∗ (∃ d, owns (c : Thread nD τ) (outM t) fullShare ((dat2 V c).before 2 t d)))

def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4000000 in
/-- The body at any point.  At a first-half point the invariant hands over the accumulator at whatever it holds and
    takes it back at what the run wrote, the output's buffer passing through untouched; at a last-half point it hands
    the accumulator over at what the first-half point before left, and both the accumulator and the output's buffer
    come back at what the run wrote. -/
theorem point2_runs (c : Dev nD) (t : Fin cfg2.N) :
    pre2 V c t ⊢ wp frame (wpE (defs₀ (F := F)) Variants.none c none) Set.univ (bodyAt2 t) (fun _ => post2 V c t) := by
  unfold pre2 post2 bodyAt2
  simp only [dat2_before_lhs, dat2_before_rhs]
  rw [show (dat2 V c).owesAt () t.succ = (dat2 V c).owesAt () t.castSucc from rfl]
  rw [show (dat2 V c).Φ t.succ = iprop(owns (c : Thread nD τ) accM fullShare (accAt V c t.val t.isLt) ∗ bystanders c ∗ (∃ r, prngReg c r)) from rfl]
  rw [show (dat2 V c).leavesExact 0 t = owns (c : Thread nD τ) (lhsM t) fullShare ((dat2 V c).after 0 t) from by
    unfold Dat.leavesExact; rw [live2_0 t], dat2_after_lhs]
  rw [show (dat2 V c).leavesExact 1 t = owns (c : Thread nD τ) (rhsM t) fullShare ((dat2 V c).after 1 t) from by
    unfold Dat.leavesExact; rw [live2_1 t], dat2_after_rhs]
  rw [dat2_inv_start V c t]
  by_cases h0 : t.val % 2 = 0
  · have hf : atFirst (grid2.coords t) := (atFirst_iff t).mpr h0
    have hl : ¬atLast (grid2.coords t) := fun hl => by have := (atLast_iff t).mp hl; omega
    rw [Dat.leavesExact_idle (dat2 V c) 2 t (idle2_2_first t hf hl) (keep2_2_first t hf hl)]
    rw [show accAt V c t.val t.isLt = firstAcc V c t h0 from dif_pos h0]
    unfold firstAcc
    iintro ⟨HΦ, Ho, ⟨%d0, H0⟩, ⟨%d1, H1⟩, ⟨%d2, H2⟩⟩
    ihave HΦ' := (carried_forget V c t.val (Nat.le_of_lt t.isLt)) $$ HΦ
    icases HΦ' with ⟨HS, Hb, Hg⟩
    iapply ((runFirst c (grid2.coords t) _ _ _ _ _ _ _ _ hf hl (blk2 V c 0 t) (blk2 V c 1 t)).2 _ Set.univ _)
    isplitl [H0]; · iexact H0
    isplitl [H1]; · iexact H1
    isplitl [H2]; · iexact H2
    isplitl [HS]; · iexact HS
    iintro ⟨H0, H1, H2, ⟨%es, HS⟩⟩
    isplitl [HS Hb Hg]
    · isplitl [HS]
      · unfold owns; iexists _; isplitr
        swap; · iexact HS
        ipureintro; exact View.read_writes_of_cover _ _ _ _ _ (firstAcc_covers V c t h0)
      isplitl [Hb]; · iexact Hb
      iexact Hg
    isplitl [Ho]; · iexact Ho
    isplitl [H0]; · iexact H0
    isplitl [H1]; · iexact H1
    iexists _; iexact H2
  · have hf : ¬atFirst (grid2.coords t) := fun hf => h0 ((atFirst_iff t).mp hf)
    have hl : atLast (grid2.coords t) := (atLast_iff t).mpr (by omega)
    rw [show (dat2 V c).leavesExact 2 t = owns (c : Thread nD τ) (outM t) fullShare ((dat2 V c).after 2 t) from by
      unfold Dat.leavesExact; rw [live2_2_last t hf hl], dat2_after_out]
    rw [show accAt V c t.val t.isLt = lastAcc V c t h0 from dif_neg h0,
      show outAt V c t.val t.isLt = lastOut V c t h0 from dif_neg h0]
    rw [carried_odd V c t h0]
    unfold lastAcc lastOut
    iintro ⟨⟨HS, Hb, Hg⟩, Ho, ⟨%d0, H0⟩, ⟨%d1, H1⟩, ⟨%d2, H2⟩⟩
    iapply ((lastRun V c t h0).2.2 Set.univ _)
    isplitl [H0]; · iexact H0
    isplitl [H1]; · iexact H1
    isplitl [H2]; · iexists _; iexact H2
    isplitl [HS]; · iexact HS
    iintro ⟨H0, H1, ⟨%eo, H2⟩, ⟨%es, HS⟩⟩
    isplitl [HS Hb Hg]
    · isplitl [HS]
      · unfold owns; iexists _; isplitr
        swap; · iexact HS
        ipureintro; exact View.read_writes_of_cover _ _ _ _ _ (lastAcc_covers V c t h0)
      isplitl [Hb]; · iexact Hb
      iexact Hg
    isplitl [Ho]; · iexact Ho
    isplitl [H0]; · iexact H0
    isplitl [H1]; · iexact H1
    unfold owns; iexists _; isplitr
    swap; · iexact H2
    ipureintro; exact View.read_writes_of_cover _ _ _ _ _ (lastOut_covers V c t h0)

/-- The body obligation of the pipeline library, at every point. -/
theorem obligation2 (c : Dev nD) : BodyObligation (dat2 (F := F) V c) (defs₀ (F := F)) Variants.none () Set.univ := fun t => by
  rw [bigSep_W2, bigSep_W2]
  exact point2_runs V c t

/-- What the region is entered with is the invariant before the first point, -/
theorem inv2_in (c : Dev nD) : Pipeline.ΦA spec2 c ⊢ (dat2 V c).Φ 0 := by
  rw [show (dat2 V c).Φ 0 = Pipeline.ΦA spec2 c from rfl]

/-- and after the last point the invariant gives the class's back, the accumulator's contents forgotten. -/
theorem inv2_out (c : Dev nD) : (dat2 V c).Φ (Fin.last cfg2.N) ⊢ Pipeline.ΦA spec2 c := by
  show carried V c (Fin.last cfg2.N).val _ ⊢ _
  exact (carried_forget V c _ _).trans (classInv_close c)

end Pass2

end Cert.KernelIdeal.Frames

end
-- ==== Proof.KernelIdealRun.lean ====
/-
  The whole program's run: its three passes one after the other, with no host operation between them.  The core's
  unscoped buffers are named at every boundary — as launched, then after each pass its output array at what the pass's
  write-backs leave and everything else unchanged — and the run ends with every unscoped buffer at the last of these.
  Read at the argument arrays this is the frame; read at the result array it is what the value claim starts from.
-/
import proofs.«162318_j1176821039703_2_alg».proof.Proof.KernelIdealQuant
import proofs.«162318_j1176821039703_2_alg».proof.Proof.KernelIdealAcc

set_option maxRecDepth 16384

noncomputable section

namespace Cert.KernelIdeal.Frames

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev B0 : Dev nD → Valuation τ sig (Elt F) := fun c b => m ((c : Dev nD), b)
abbrev E0 : (c : Dev nD) → (b : Ref sig .tc) → Buf (Elt F) ((c : Thread nD τ).loc b) := fun c b => B0 m c b

/-- After pass 0: its arrays at what its write-backs leave (the input as entered, the output's blocks folded in), every
    other buffer as before. -/
def B1 (c : Dev nD) : Valuation τ sig (Elt F) :=
  Pipeline.withArrays spec0 c (B0 m c) fun w => (dat0 (E0 m) c).arrAt w cfg0.N
theorem B1_arr (c : Dev nD) (w : Fin cfg0.W) :
    B1 m c (Proc.devRef .tc (Pipeline.arrRef spec0 w)) = (dat0 (E0 m) c).arrAt w cfg0.N := by
  unfold B1; exact Pipeline.withArrays_arr spec0 launch0.win.arr_inj c _ _ w
theorem B1_of_ne (c : Dev nD) (b : Ref sig .tc) (hb : ∀ w, Pipeline.arrRef spec0 w ≠ b) :
    B1 m c (Proc.devRef .tc b) = B0 m c (Proc.devRef .tc b) := by
  unfold B1; exact Pipeline.withArrays_of_ne spec0 c _ _ b hb
/-- The same read at the TensorCore's references. -/
abbrev E1 : (c : Dev nD) → (b : Ref sig .tc) → Buf (Elt F) ((c : Thread nD τ).loc b) := fun c b => B1 m c b
theorem left0_arr (c : Dev nD) (w : Fin cfg0.W) : (dat0 (E0 m) c).arrAt w cfg0.N = E1 m c (Pipeline.arrRef spec0 w) :=
  (B1_arr m c w).symm
theorem left0_rest (c : Dev nD) : ∀ b, b ∉ Finset.univ.image (Pipeline.arrRef spec0) → E1 m c b = E0 m c b :=
  fun b hb => B1_of_ne m c b fun w e => hb (Finset.mem_image.mpr ⟨w, Finset.mem_univ _, e⟩)

/-- After pass 1: its arrays at what its write-backs leave (the input as entered, the output's blocks folded in), every
    other buffer as before. -/
def B2 (c : Dev nD) : Valuation τ sig (Elt F) :=
  Pipeline.withArrays spec1 c (B1 m c) fun w => (dat1 (E1 m) c).arrAt w cfg1.N
theorem B2_arr (c : Dev nD) (w : Fin cfg1.W) :
    B2 m c (Proc.devRef .tc (Pipeline.arrRef spec1 w)) = (dat1 (E1 m) c).arrAt w cfg1.N := by
  unfold B2; exact Pipeline.withArrays_arr spec1 launch1.win.arr_inj c _ _ w
theorem B2_of_ne (c : Dev nD) (b : Ref sig .tc) (hb : ∀ w, Pipeline.arrRef spec1 w ≠ b) :
    B2 m c (Proc.devRef .tc b) = B1 m c (Proc.devRef .tc b) := by
  unfold B2; exact Pipeline.withArrays_of_ne spec1 c _ _ b hb
/-- The same read at the TensorCore's references. -/
abbrev E2 : (c : Dev nD) → (b : Ref sig .tc) → Buf (Elt F) ((c : Thread nD τ).loc b) := fun c b => B2 m c b
theorem left1_arr (c : Dev nD) (w : Fin cfg1.W) : (dat1 (E1 m) c).arrAt w cfg1.N = E2 m c (Pipeline.arrRef spec1 w) :=
  (B2_arr m c w).symm
theorem left1_rest (c : Dev nD) : ∀ b, b ∉ Finset.univ.image (Pipeline.arrRef spec1) → E2 m c b = E1 m c b :=
  fun b hb => B2_of_ne m c b fun w e => hb (Finset.mem_image.mpr ⟨w, Finset.mem_univ _, e⟩)

/-- After pass 2: its arrays at what its write-backs leave (the input as entered, the output's blocks folded in), every
    other buffer as before. -/
def B3 (c : Dev nD) : Valuation τ sig (Elt F) :=
  Pipeline.withArrays spec2 c (B2 m c) fun w => (dat2 (E2 m) c).arrAt w cfg2.N
theorem B3_arr (c : Dev nD) (w : Fin cfg2.W) :
    B3 m c (Proc.devRef .tc (Pipeline.arrRef spec2 w)) = (dat2 (E2 m) c).arrAt w cfg2.N := by
  unfold B3; exact Pipeline.withArrays_arr spec2 launch2.win.arr_inj c _ _ w
theorem B3_of_ne (c : Dev nD) (b : Ref sig .tc) (hb : ∀ w, Pipeline.arrRef spec2 w ≠ b) :
    B3 m c (Proc.devRef .tc b) = B2 m c (Proc.devRef .tc b) := by
  unfold B3; exact Pipeline.withArrays_of_ne spec2 c _ _ b hb
/-- The same read at the TensorCore's references. -/
abbrev E3 : (c : Dev nD) → (b : Ref sig .tc) → Buf (Elt F) ((c : Thread nD τ).loc b) := fun c b => B3 m c b
theorem left2_arr (c : Dev nD) (w : Fin cfg2.W) : (dat2 (E2 m) c).arrAt w cfg2.N = E3 m c (Pipeline.arrRef spec2 w) :=
  (B3_arr m c w).symm
theorem left2_rest (c : Dev nD) : ∀ b, b ∉ Finset.univ.image (Pipeline.arrRef spec2) → E3 m c b = E2 m c b :=
  fun b hb => B3_of_ne m c b fun w e => hb (Finset.mem_image.mpr ⟨w, Finset.mem_univ _, e⟩)

/-! ## The arguments end as launched: no pass writes one -/

theorem B3_main_arg0 (c : Dev nD) : B3 m c (Proc.devRef .tc main_arg0) = m ((c : Thread nD τ).loc main_arg0) :=
  calc B3 m c (Proc.devRef .tc main_arg0)
    _ = B2 m c (Proc.devRef .tc main_arg0) := B3_of_ne m c main_arg0 (by decide)
    _ = B1 m c (Proc.devRef .tc main_arg0) := B2_of_ne m c main_arg0 (by decide)
    _ = B0 m c (Proc.devRef .tc main_arg0) := (B1_arr m c 0).trans (((dat0 (E0 m) c).arrAt_in 0 rfl _).trans (dat0_A (E0 m) c 0))
    _ = m ((c : Thread nD τ).loc main_arg0) := rfl

theorem B3_main_arg1 (c : Dev nD) : B3 m c (Proc.devRef .tc main_arg1) = m ((c : Thread nD τ).loc main_arg1) :=
  calc B3 m c (Proc.devRef .tc main_arg1)
    _ = B2 m c (Proc.devRef .tc main_arg1) := B3_of_ne m c main_arg1 (by decide)
    _ = B1 m c (Proc.devRef .tc main_arg1) := (B2_arr m c 0).trans (((dat1 (E1 m) c).arrAt_in 0 rfl _).trans (dat1_A (E1 m) c 0))
    _ = B0 m c (Proc.devRef .tc main_arg1) := B1_of_ne m c main_arg1 (by decide)
    _ = m ((c : Thread nD τ).loc main_arg1) := rfl

/-! ## The proof data family and the thread state -/

/-- No pipeline has a prefetched table. -/
abbrev adm : (p : Fin 3) → (pcfgs (F := F) p).Adm := fun p => (cfgs p).toPCfg_adm
/-- Every pass's proof data, each at its entry contents: a literal match on the pipeline's number. -/
def pdats : (p : Fin 3) → (c : Dev nD) → Dat τ (Elt F) Unit ℕ (UR sig nD τ) ℕ (Pipeline.pin (pcfgs (F := F)) adm p) c
  | ⟨0, _⟩ => fun c => dat0 (E0 m) c
  | ⟨1, _⟩ => fun c => dat1 (E1 m) c
  | ⟨2, _⟩ => fun c => dat2 (E2 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every pass: the generator register at some state, and nothing owed. -/
abbrev riding (c : Dev nD) : sProp 𝕄 := iprop((∃ r, prngReg c r) ∗ ∃ W, owes (c : Thread nD τ) (0 : CellTallies nD τ sig Unit) W)
/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the generator
    register at some state. -/
abbrev atEnd (c : Dev nD) : sProp 𝕄 := iprop(StableHlo.held (c : Thread nD τ) (Pipeline.ucRefs τ sig) (B3 m c) ∗ ∃ r, prngReg c r)

/-! ## The passes as segments -/

set_option backward.isDefEq.respectTransparency.types false in
/-- Pass 0 over the thread state: entered with every unscoped buffer at `B0`, left with them at `B1`.  Its arrays
    are split out of the unscoped buffers at entry and put back at their final contents at exit; the generator
    register goes into the pass's invariant and comes back; nothing is owed; the kernel has no semaphore of its own. -/
def pass0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (obligation0 (E0 m) c).loose
  hwaits := Pipeline.hwaits_of_owed_zero _ _ _ _ L lv 0 fun _ _ => rfl
  pre c := iprop(StableHlo.held (c : Thread nD τ) (Pipeline.ucRefs τ sig) (B0 m c) ∗ riding c)
  post c := iprop(StableHlo.held (c : Thread nD τ) (Pipeline.ucRefs τ sig) (B1 m c) ∗ riding c)
  X c := iprop(∃ r, prngReg c r)
  Y c := iprop(∃ r, prngReg c r)
  Z c := Pipeline.unscopedRest (Ix := Unit) (Name := ℕ) (U := UR sig nD τ) (Lvl := ℕ) spec0 c (E0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (E0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (E0 m c) (E1 m c) ((pdats m 0 c).arrAt · cfg0.N) (left0_arr m c) (left0_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 1 over the thread state: entered with every unscoped buffer at `B1`, left with them at `B2`.  Its arrays
    are split out of the unscoped buffers at entry and put back at their final contents at exit; the generator
    register goes into the pass's invariant and comes back; nothing is owed; the kernel has no semaphore of its own. -/
def pass1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (obligation1 (E1 m) c).loose
  hwaits := Pipeline.hwaits_of_owed_zero _ _ _ _ L lv 1 fun _ _ => rfl
  pre c := iprop(StableHlo.held (c : Thread nD τ) (Pipeline.ucRefs τ sig) (B1 m c) ∗ riding c)
  post c := iprop(StableHlo.held (c : Thread nD τ) (Pipeline.ucRefs τ sig) (B2 m c) ∗ riding c)
  X c := iprop(∃ r, prngReg c r)
  Y c := iprop(∃ r, prngReg c r)
  Z c := Pipeline.unscopedRest (Ix := Unit) (Name := ℕ) (U := UR sig nD τ) (Lvl := ℕ) spec1 c (E1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (E1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    rw [show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (E1 m c) (E2 m c) ((pdats m 1 c).arrAt · cfg1.N) (left1_arr m c) (left1_rest m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Pass 2 over the thread state: entered with every unscoped buffer at `B2`, left with them at `B3`.  Its arrays
    are split out of the unscoped buffers at entry and put back at their final contents at exit; the generator
    register goes into the pass's invariant and comes back; nothing is owed; the kernel has no semaphore of its own. -/
def pass2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (obligation2 (E2 m) c).loose
  hwaits := Pipeline.hwaits_of_owed_zero _ _ _ _ L lv 2 fun _ _ => rfl
  pre c := iprop(StableHlo.held (c : Thread nD τ) (Pipeline.ucRefs τ sig) (B2 m c) ∗ riding c)
  post c := iprop(atEnd m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (E2 m c)
  hentry c := by
    rw [Pipeline.ownSems0_none]
    have hsplit := Pipeline.arrays_of_unscopedBufs (p := 2) (pcfgs (F := F)) adm (pdats m) launch2.win launch2.arr_whole c
      ((pdats m 2 c).share_full fun _ => rfl) (E2 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none]
    have h : (Pipeline.ΦA spec2 c : sProp 𝕄) ⊢ iprop((∃ r, prngReg c r) ∗ BI.emp ∗ Pipeline.scopedRest spec2 c) := by
      unfold Pipeline.ΦA
      iintro ⟨Hr, Hp⟩
      isplitl [Hp]; · iexact Hp
      isplitr; · iempintro
      iexact Hr
    exact (inv2_out (E2 m) c).trans h
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (E2 m c) (E3 m c) ((pdats m 2 c).arrAt · cfg2.N) (left2_arr m c) (left2_rest m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The run -/

abbrev segs : List (Pipeline.Seg (pcfgs (F := F)) adm (pdats m) () defs₀ 𝒱₀ L lv) :=
  [ .region (pass0 m), .region (pass1 m), .region (pass2 m) ]

theorem main_is_segs (c : Dev nD) : main (F := F) c = Pipeline.Seg.run (segs m) := (main_chain c).trans (by chain_rfl)

set_option backward.isDefEq.respectTransparency.types false in
/-- THE RUN.  From any memory with zero counters every weakly fair execution of the program terminates without fault,
    and in every final state every unscoped buffer of every core holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B3 m c b) :=
  Pipeline.θ_run_regions_kit (pcfgs (F := F)) adm (pdats m) () cellOf_inj emb₁ defs₀ 𝒱₀ L lv m ρ main (segs m)
    (fun c Q => by rw [main_is_segs m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ riding c)) (Tₙ := atEnd m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B3 m c b)
    (hfin := fun c s' => by
      iintro ⟨⟨Hh, -⟩, HSI⟩
      unfold StableHlo.held
      imodintro
      iapply (pointsTo_read_all (Pipeline.ucRefs τ sig) (fun b => (((c : Thread nD τ)).1, b)) (B3 m c) s')
      isplitl [Hh] <;> iassumption)
    (hQ := fun s h c => h c)

/-- THE FRAME: the program runs to the end without fault and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c _ (mem_uc main_arg0 (by decide))).trans (B3_main_arg0 m c),
     (h c _ (mem_uc main_arg1 (by decide))).trans (B3_main_arg1 m c)⟩) (run_all m ρ)

end Cert.KernelIdeal.Frames

end
-- ==== Proof.Spec.lean ====
/-
  What both programs compute, over the extended reals.

  A row of 4096 entries is cut into 64 groups of 64 consecutive entries.  A group's step is its largest magnitude
  divided by 7, but never less than the smallest step allowed; an entry is divided by its group's step, rounded to
  the nearest integer (ties to even), clamped to the sixteen levels -8 … 7, and multiplied by the step again.  The
  result is the product of the activations so treated with the transpose of the weights so treated: entry (i, j) is
  the sum over k of the treated x[i, k] times the treated w[j, k].
-/
import Idealize.ShloMosaic.PureOps.Ideal
import Idealize.ShloMosaic.PureOps.Ideal.Laws
import Idealize.ShloMosaic.Lib.ValueIdx

noncomputable section

namespace Cert.Spec

open Idealize.ShloMosaic

/-- The largest magnitude among 64 entries: the running maximum, started at −∞, of each entry's absolute value
    (the larger of the entry and its negation). -/
def groupMax (f : Fin 64 → EReal) : EReal :=
  (Finset.univ : Finset (Fin 64)).fold max (Ideal.ofBits .f32 0xFF800000#32) (fun l => max (f l) (-(f l)))

/-- A group's step: its largest magnitude over 7, and at least the floor 0x322BCC77 (the binary value nearest 1e-8). -/
def step (M : EReal) : EReal :=
  max (Ideal.div M (Ideal.ofBits .f32 0x40E00000#32)) (Ideal.ofBits .f32 0x322BCC77#32)

/-- One entry at a given step: divide, round half to even, clamp to [-8, 7], multiply back. -/
def requant (x s : EReal) : EReal :=
  min (Ideal.ofBits .f32 0x40E00000#32)
      (max (Ideal.ofBits .f32 0xC1000000#32) (Ideal.liftRound Ideal.roundHalfEven (Ideal.div x s))) * s

/-- Entry `64 g + l` of a row: member `l` of group `g`. -/
def member (g l : Fin 64) : Fin 4096 := ⟨64 * g.val + l.val, by omega⟩

/-- The group an entry of a row lies in. -/
def groupOf (k : Fin 4096) : Fin 64 := ⟨k.val / 64, by omega⟩

/-- The step of group `g` of a row. -/
def rowStep (row : Fin 4096 → EReal) (g : Fin 64) : EReal :=
  step (groupMax fun l => row (member g l))

/-- A row treated group by group. -/
def quantRow (row : Fin 4096 → EReal) (k : Fin 4096) : EReal :=
  requant (row k) (rowStep row (groupOf k))

/-- Entry (i, j) of the result: the treated row i of the activations against the treated row j of the weights. -/
def out (X : Fin 8192 → Fin 4096 → EReal) (W : Fin 4096 → Fin 4096 → EReal) (i : Fin 8192) (j : Fin 4096) : EReal :=
  ∑ k : Fin 4096, quantRow (X i) k * quantRow (W j) k

/-- The result array over the two argument arrays, index by index. -/
def result (x : (⟨2, ![8192, 4096]⟩ : Shape).Idx → EReal) (w : (⟨2, ![4096, 4096]⟩ : Shape).Idx → EReal) :
    (⟨2, ![8192, 4096]⟩ : Shape).Idx → EReal :=
  fun i => out (fun r k => x (ValueIdx.ix2 r k)) (fun r k => w (ValueIdx.ix2 r k)) (i 0) (i 1)

/-- A matrix of rows of 4096 treated row by row, index by index (any number of rows). -/
def quantArr {n : Nat} (t : (⟨2, ![n, 4096]⟩ : Shape).Idx → EReal) : (⟨2, ![n, 4096]⟩ : Shape).Idx → EReal :=
  fun i => quantRow (fun k => t (ValueIdx.ix2 (i 0) k)) (i 1)

end Cert.Spec

end
-- ==== Proof.PayloadAt.lean ====
/-
  The kernel bodies' stored values, read at an index, over the extended reals.

  The two quantize bodies view a block of 1024 rows of 4096 entries as 1024 × 64 groups of 64, take each group's largest
  magnitude, turn it into the group's step, divide every entry by its group's step, round, clamp, multiply back and
  view the result as rows of 4096 again; the narrowing to bf16 that follows is the identity on extended reals.  Read
  at entry (r, k) this is the row r treated group by group, at k.  The matmul body stores, at (p, q), the accumulator
  there plus the sum over k of a(p, k) · b(q, k); its zero splat is 0 everywhere.
-/
import proofs.«162318_j1176821039703_2_alg».proof.Proof.Gen.KernelIdeal.Skeleton
import proofs.«162318_j1176821039703_2_alg».proof.Proof.Spec
import Idealize.ShloMosaic.Lib.ValueIdx
import Idealize.ShloMosaic.Lib.Pipeline.Value
import Idealize.ShloMosaic.PureOps.Ideal.Laws

noncomputable section

namespace Cert.KernelIdeal.PayAt

open Idealize.ShloMosaic Idealize.SL.Sem Idealize.ShloMosaic.ValueIdx
open Cert.KernelIdeal Cert.KernelIdeal.Gen

/-! ## The layout operations at explicit coordinates

Row-major positions: entry (r, 64 g + l) of a [1024, 4096] block and entry (r, g, l) of its [1024, 64, 64] view sit at
the same position r · 4096 + 64 g + l. -/

section Layout
variable {α : Type}

/-- Rows of 4096 viewed as 64 groups of 64: entry (r, g, l) of the view is entry (r, 64 g + l) of the block. -/
theorem cast_in (v : S1024x4096.Idx → α) (r : Fin 1024) (g l : Fin 64) :
    shapeCast S1024x64x64 v shapeCasts_S1024x4096_S1024x64x64 (ix3 r g l) = v (ix2 r (Spec.member g l)) := by
  refine shapeCast_apply v _ (ix3 r g l) (ix2 r (Spec.member g l)) ?_
  rw [Shape.rowMajor_val_two, Shape.rowMajor_val_three]
  show r.val * 4096 + (64 * g.val + l.val) = (r.val * 64 + g.val) * 64 + l.val
  omega

/-- Groups viewed as rows again: entry (r, k) of the block is entry (r, k / 64, k % 64) of the grouped view. -/
theorem cast_out (w : S1024x64x64.Idx → α) (r : Fin 1024) (k : Fin 4096) :
    shapeCast S1024x4096 w shapeCasts_S1024x64x64_S1024x4096 (ix2 r k)
      = w (ix3 r (Spec.groupOf k) ⟨k.val % 64, Nat.mod_lt _ (by decide)⟩) := by
  refine shapeCast_apply w _ (ix2 r k) (ix3 r (Spec.groupOf k) ⟨k.val % 64, Nat.mod_lt _ (by decide)⟩) ?_
  rw [Shape.rowMajor_val_three, Shape.rowMajor_val_two]
  show (r.val * 64 + k.val / 64) * 64 + k.val % 64 = r.val * 4096 + k.val
  omega

/-- A trailing unit axis added to a [1024, 64] array: entry (r, g, 0) is entry (r, g). -/
theorem keep (w : S1024x64.Idx → α) (r : Fin 1024) (g : Fin 64) (z : Fin 1) :
    shapeCast S1024x64x1 w shapeCasts_S1024x64_S1024x64x1 (ix3 r g z) = w (ix2 r g) := by
  refine shapeCast_apply w _ (ix3 r g z) (ix2 r g) ?_
  rw [Shape.rowMajor_val_two, Shape.rowMajor_val_three]
  have hz : z.val < 1 := z.isLt
  show r.val * 64 + g.val = (r.val * 64 + g.val) * 1 + z.val
  omega

/-- One value per group spread over the group's 64 members: entry (r, g, l) is entry (r, g, 0). -/
theorem bcast (w : S1024x64x1.Idx → α) (r : Fin 1024) (g l : Fin 64) :
    broadcastTo S1024x64x64 w broadcasts_S1024x64x1_S1024x64x64 (ix3 r g l) = w (ix3 r g 0) := by
  refine broadcastTo_apply w _ (ix3 r g l) (ix3 r g 0) (fun a => ?_)
  match a with
  | ⟨0, _⟩ => rfl
  | ⟨1, _⟩ => rfl
  | ⟨2, _⟩ => rfl

end Layout

/-- The maximum over a group's members, started at −∞: at (r, g) the running maximum of the entries (r, g, l),
    l = 0 … 63. -/
theorem lanemax (w : FVec Ideal S1024x64x64 .f32) (r : Fin 1024) (g : Fin 64) :
    multiReduction (F := Ideal) .maximumf [2] S1024x64 w 0xFF800000#32 reduces_S1024x64x64_S1024x64 (.inl rfl) rfl (ix2 r g)
      = (Finset.univ : Finset (Fin 64)).fold max (Ideal.ofBits .f32 0xFF800000#32) (fun l => w (ix3 r g l)) := by
  refine (Ideal.multiReduction_maximumf_single w 0xFF800000#32 reduces_S1024x64x64_S1024x64 (.inl rfl) rfl (ix2 r g)).trans ?_
  -- the index (r, g) with l inserted on the last axis is (r, g, l)
  have e : (w ∘ reduces_S1024x64x64_S1024x64.lift (ix2 r g)) = fun (l : Fin 64) => w (ix3 r g l) := by
    funext l
    refine congrArg w (funext fun c => Fin.ext ?_)
    match c with
    | ⟨0, _⟩ => rfl
    | ⟨1, _⟩ => rfl
    | ⟨2, _⟩ => rfl
  rw [e]
  rfl

/-! ## Two elementwise operations at an index -/

section AtIndex
variable {s : Shape} {φ : FTy}

/-- Rounding to the nearest integer, ties to even, entry by entry. -/
theorem roundeven_apply (a : FVec Ideal s φ) (i : s.Idx) :
    roundeven a i = Ideal.liftRound Ideal.roundHalfEven (a i) := rfl

/-- The magnitude of an entry: the larger of the entry and its negation. -/
theorem absf_apply (a : FVec Ideal s φ) (i : s.Idx) : absf a i = max (a i) (-(a i)) := rfl

end AtIndex

/-! ## The quantize bodies -/

/-- The steps of a grouped block, one per group: the group's largest magnitude over 7, at least the floor. -/
def stepVec (w : FVec Ideal S1024x64x64 .f32) : FVec Ideal S1024x64x1 .f32 :=
  maximumf
    (divf
      (shapeCast S1024x64x1
        (multiReduction (F := Ideal) .maximumf [2] S1024x64 (absf w) 0xFF800000#32 reduces_S1024x64x64_S1024x64 (.inl rfl) rfl)
        shapeCasts_S1024x64_S1024x64x1)
      (broadcast S1024x64x1 (Scalar.ofBits (F := Ideal) .f32 0x40E00000#32)))
    (broadcast S1024x64x1 (Scalar.ofBits (F := Ideal) .f32 0x322BCC77#32))

/-- At group (r, g) it is the step of the group's 64 entries. -/
theorem stepVec_apply (w : FVec Ideal S1024x64x64 .f32) (r : Fin 1024) (g : Fin 64) (z : Fin 1) :
    stepVec w (ix3 r g z) = Spec.step (Spec.groupMax fun l => w (ix3 r g l)) := by
  unfold stepVec
  rw [maximumf_apply, divf_apply, keep, lanemax]
  rfl

/-- A grouped block treated: every entry divided by its group's step, rounded, clamped to −8 … 7, multiplied back. -/
def treated (w : FVec Ideal S1024x64x64 .f32) : FVec Ideal S1024x64x64 .f32 :=
  mulf
    (minimumf (broadcast S1024x64x64 (Scalar.ofBits (F := Ideal) .f32 0x40E00000#32))
      (maximumf (broadcast S1024x64x64 (Scalar.ofBits (F := Ideal) .f32 0xC1000000#32))
        (roundeven (divf w (broadcastTo S1024x64x64 (stepVec w) broadcasts_S1024x64x1_S1024x64x64)))))
    (broadcastTo S1024x64x64 (stepVec w) broadcasts_S1024x64x1_S1024x64x64)

/-- At member l of group (r, g) it is that entry treated at its group's step. -/
theorem treated_apply (w : FVec Ideal S1024x64x64 .f32) (r : Fin 1024) (g l : Fin 64) :
    treated w (ix3 r g l) = Spec.requant (w (ix3 r g l)) (Spec.step (Spec.groupMax fun l' => w (ix3 r g l'))) := by
  unfold treated
  rw [mulf_apply, minimumf_apply, maximumf_apply, roundeven_apply, divf_apply, bcast, stepVec_apply]
  rfl

/-- The first quantize body is: group, treat, ungroup, narrow. -/
theorem k0_eq (v0 : Vec Ideal S1024x4096 .f32) :
    k0_pay1 (F := Ideal) v0
      = truncf .bf16 (shapeCast S1024x4096 (treated (shapeCast S1024x64x64 v0 shapeCasts_S1024x4096_S1024x64x64))
          shapeCasts_S1024x64x64_S1024x4096) bitsLt_bf16_f32 := rfl

/-- Entry k of a row is member k % 64 of group k / 64. -/
theorem member_groupOf (k : Fin 4096) :
    Spec.member (Spec.groupOf k) ⟨k.val % 64, Nat.mod_lt _ (by decide)⟩ = k :=
  Fin.ext (by show 64 * (k.val / 64) + k.val % 64 = k.val; omega)

/-- The first quantize body at entry (r, k): row r treated group by group, at k. -/
theorem quant_at (v0 : Vec Ideal S1024x4096 .f32) (r : Fin 1024) (k : Fin 4096) :
    k0_pay1 (F := Ideal) v0 (ix2 r k) = Spec.quantRow (fun k' => v0 (ix2 r k')) k := by
  rw [k0_eq, truncf_apply, cast_out, treated_apply]
  simp only [cast_in]
  rw [member_groupOf]
  rfl

/-- The first quantize body stores the block treated row by row. -/
theorem quant_pay0 (v0 : Vec Ideal S1024x4096 .f32) :
    k0_pay1 (F := Ideal) v0 = Spec.quantArr (n := 1024) v0 := by
  funext j
  obtain ⟨r, k, rfl⟩ : ∃ (r : Fin 1024) (k : Fin 4096), j = ix2 r k := ⟨j 0, j 1, eq_ix2 j⟩
  exact quant_at v0 r k

/-- The second quantize body is the same function as the first. -/
theorem k1_eq_k0 : k1_pay1 (F := Ideal) = k0_pay1 (F := Ideal) := rfl

/-- The second quantize body stores the block treated row by row. -/
theorem quant_pay1 (v0 : Vec Ideal S1024x4096 .f32) :
    k1_pay1 (F := Ideal) v0 = Spec.quantArr (n := 1024) v0 :=
  (congrFun k1_eq_k0 v0).trans (quant_pay0 v0)

/-! ## The matmul body -/

/-- The zero splat is 0 at every index. -/
theorem zero_pay (j : S2048x1024.Idx) : k2_pay1 (F := Ideal) j = 0 := by
  unfold k2_pay1
  exact Ideal.ofBits_zero_f32

/-- The left operand's row is the output's row … -/
theorem lhs0 (j : S2048x1024.Idx) (q : dot_S2048x2048_S1024x2048_S2048x1024_1_1_0_0_n_n.contr.Idx) : (dot_S2048x2048_S1024x2048_S2048x1024_1_1_0_0_n_n.lhsIdx j q 0).val = (j 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
/-- … its column the contraction's coordinate; -/
theorem lhs1 (j : S2048x1024.Idx) (q : dot_S2048x2048_S1024x2048_S2048x1024_1_1_0_0_n_n.contr.Idx) : (dot_S2048x2048_S1024x2048_S2048x1024_1_1_0_0_n_n.lhsIdx j q 1).val = (q ⟨0, by decide⟩).val :=
  dot_S2048x2048_S1024x2048_S2048x1024_1_1_0_0_n_n.lhsIdx_val_of_single rfl j q
/-- the right operand's row is the output's column … -/
theorem rhs0 (j : S2048x1024.Idx) (q : dot_S2048x2048_S1024x2048_S2048x1024_1_1_0_0_n_n.contr.Idx) : (dot_S2048x2048_S1024x2048_S2048x1024_1_1_0_0_n_n.rhsIdx j q 0).val = (j 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
/-- … and its column the contraction's coordinate. -/
theorem rhs1 (j : S2048x1024.Idx) (q : dot_S2048x2048_S1024x2048_S2048x1024_1_1_0_0_n_n.contr.Idx) : (dot_S2048x2048_S1024x2048_S2048x1024_1_1_0_0_n_n.rhsIdx j q 1).val = (q ⟨0, by decide⟩).val :=
  dot_S2048x2048_S1024x2048_S2048x1024_1_1_0_0_n_n.rhsIdx_val_of_single rfl j q

/-- The accumulating store at (p, q): the accumulator there plus the sum over k of a(p, k) · b(q, k). -/
theorem acc_pay (a : Vec Ideal S2048x2048 .bf16) (b : Vec Ideal S1024x2048 .bf16) (acc : Vec Ideal S2048x1024 .f32)
    (p : Fin 2048) (q : Fin 1024) :
    k2_pay2 (F := Ideal) a b acc (ix2 p q) = acc (ix2 p q) + ∑ k : Fin 2048, a (ix2 p k) * b (ix2 q k) := by
  unfold k2_pay2
  simp only [shapeCast_self]
  rw [addf_apply]
  simp only [matmul]
  rw [Ideal.matmul_constant_zero_apply, ← Equiv.sum_comp (contrEquiv1 dot_S2048x2048_S1024x2048_S2048x1024_1_1_0_0_n_n 2048 rfl rfl).symm]
  refine congrArg (acc (ix2 p q) + ·) (Finset.sum_congr rfl fun k _ => ?_)
  have hk := contrEquiv1_symm_val dot_S2048x2048_S1024x2048_S2048x1024_1_1_0_0_n_n 2048 rfl rfl k
  have el : dot_S2048x2048_S1024x2048_S2048x1024_1_1_0_0_n_n.lhsIdx (ix2 p q) ((contrEquiv1 dot_S2048x2048_S1024x2048_S2048x1024_1_1_0_0_n_n 2048 rfl rfl).symm k) = ix2 p k := funext fun c => Fin.ext (by
    match c with
    | ⟨0, _⟩ => exact lhs0 _ _
    | ⟨1, _⟩ => exact (lhs1 _ _).trans hk)
  have er : dot_S2048x2048_S1024x2048_S2048x1024_1_1_0_0_n_n.rhsIdx (ix2 p q) ((contrEquiv1 dot_S2048x2048_S1024x2048_S2048x1024_1_1_0_0_n_n 2048 rfl rfl).symm k) = ix2 q k := funext fun c => Fin.ext (by
    match c with
    | ⟨0, _⟩ => exact rhs0 _ _
    | ⟨1, _⟩ => exact (rhs1 _ _).trans hk)
  rw [el, er]

end Cert.KernelIdeal.PayAt

end
-- ==== Proof.KernelIdealValue.lean ====
/-
  What the idealized kernel computes, read off its run.  Each rounding pass writes back, block by block, the rows of
  its input treated group by group, and the blocks tile the array, so its output array is the input treated row by
  row.  The product pass visits every output block twice: at the first half of the contracted axis the accumulator
  ends at zero plus that half's partial sums, at the last half at that plus the other half's, which is then the
  block written back; the two halves together are the sum over all 4096 columns (addition of extended reals is
  associative and commutative, and zero is neutral — nothing else is used), and the blocks tile the result.  So the
  result array is the treated activations times the transpose of the treated weights.
-/
import proofs.«162318_j1176821039703_2_alg».proof.Proof.KernelIdealRun
import proofs.«162318_j1176821039703_2_alg».proof.Proof.PayloadAt
import proofs.«162318_j1176821039703_2_alg».proof.Proof.Spec
import Idealize.ShloMosaic.Lib.Pipeline.Value
import Idealize.ShloMosaic.Lib.ValueIdx

set_option maxRecDepth 16384

noncomputable section

namespace Cert.KernelIdeal.Values

open Cert.KernelIdeal Cert.KernelIdeal.Gen Cert.KernelIdeal.Frames
open Idealize.ShloMosaic Idealize.ShloMosaic.TcCoe Idealize.ShloMosaic.Tactic Idealize.ShloMosaic.ValueIdx
open Idealize.SL Idealize.SL.Sem
open Idealize.ShloMosaic.Pipeline (Dat Cfg Window)

variable (m : (ℓ : Loc nD τ sig) → Buf (Elt Ideal) ℓ)

theorem hz : (![0, 0] : Fin 2 → Nat) = fun _ => 0 := funext fun a => by fin_cases a <;> rfl

/-- Treating a block of whole rows is treating the array on those rows: if the block's row `j 0` is the array's row
    `i 0` entry by entry and the columns agree, the treated entries agree. -/
theorem quantArr_block {n N : Nat} (b : (⟨2, ![n, 4096]⟩ : Shape).Idx → EReal) (arr : (⟨2, ![N, 4096]⟩ : Shape).Idx → EReal)
    (j : (⟨2, ![n, 4096]⟩ : Shape).Idx) (i : (⟨2, ![N, 4096]⟩ : Shape).Idx)
    (hcol : (i 1).val = (j 1).val) (hrow : ∀ k : Fin 4096, b (ix2 (j 0) k) = arr (ix2 (i 0) k)) :
    Spec.quantArr b j = Spec.quantArr arr i := by
  show Spec.quantRow (fun k => b (ix2 (j 0) k)) (j 1) = Spec.quantRow (fun k => arr (ix2 (i 0) k)) (i 1)
  rw [show (fun k => b (ix2 (j 0) k)) = fun k => arr (ix2 (i 0) k) from funext hrow]
  congr 1
  exact Fin.ext hcol.symm

/-! ## The rounding pass over the activations: its output array, whole -/

/-- The pass's two index maps over its grid: point `t` takes row block `t`, all columns. -/
theorem grid0_blocks : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- WHAT POINT `t` WRITES BACK is block `t` of the array treated row by row: a row's groups lie inside the row, and a
    block is whole rows, so treating the block is treating the array there. -/
theorem wrote0 (c : Dev nD) (t : Fin cfg0.N) :
    (dat0 (E0 m) c).flushed 1 t = ((cfg0.win 1).blk t).view.read (Elt Ideal) (Spec.quantArr (n := 8192) (E0 m c main_arg0)) := by
  show (cfg0.win 1).cut (grid0.coords t) ((dat0 (E0 m) c).after 1 t) = _
  rw [dat0_after_out]
  unfold rounded0
  rw [View.canon_unit_zero hz]
  simp only [View.ld_unit_zero (S := S1024x4096) hz]
  rw [Cert.KernelIdeal.PayAt.quant_pay0]
  obtain ⟨e0, e1, e2, e3⟩ := grid0_blocks t
  funext j
  refine quantArr_block (blk0 (E0 m) c 0 t) (E0 m c main_arg0) j (((cfg0.win 1).blk t).view.emb j) ?_ ?_
  · show win0_1.index t (1 : Fin 2) * 4096 + 1 * (j 1).val = (j 1).val
    omega
  · intro k
    show E0 m c main_arg0 (((cfg0.win 0).blk t).view.emb (ix2 (j 0) k)) = E0 m c main_arg0 (ix2 ((((cfg0.win 1).blk t).view.emb j) 0) k)
    congr 1
    funext a; apply Fin.ext
    match a with
    | ⟨0, _⟩ => show win0_0.index t (0 : Fin 2) * 1024 + 1 * (j 0).val = win0_1.index t (0 : Fin 2) * 1024 + 1 * (j 0).val; omega
    | ⟨1, _⟩ => show win0_0.index t (1 : Fin 2) * 4096 + 1 * k.val = k.val; omega

/-- An index of the output array is in point `t`'s block iff each coordinate is in the block's range. -/
theorem in_block0 (t : Fin cfg0.N) (i : S8192x4096.Idx) :
    i ∈ ((cfg0.win 1).blk t).view.set ↔ ∀ a : Fin 2, win0_1.index t a * S1024x4096.size a ≤ (i a).val ∧ (i a).val < win0_1.index t a * S1024x4096.size a + S1024x4096.size a := by
  show i ∈ ((View.whole main_v0).slice (win0_1.rect t)).set ↔ _
  rw [View.set_slice_whole, Rect.mem_set_unit]
  exact Iff.rfl

/-- Every row lies in the block of the point numbered by the row's thousand-and-twenty-four. -/
theorem covered0 (i : S8192x4096.Idx) : ∃ t : Fin cfg0.N, (cfg0.win 1).flush t = true ∧ i ∈ ((cfg0.win 1).blk t).view.set := by
  have hi0 : (i 0).val < 8192 := (i 0).isLt
  have hi1 : (i 1).val < 4096 := (i 1).isLt
  have hN : cfg0.N = 8 := N_0
  have ht : (i 0).val / 1024 < cfg0.N := by rw [hN]; omega
  refine ⟨⟨(i 0).val / 1024, ht⟩, flush0_1 _, ?_⟩
  rw [in_block0]
  obtain ⟨e0, e1, e2, e3⟩ := grid0_blocks ⟨(i 0).val / 1024, ht⟩
  intro a
  match a with
  | ⟨0, _⟩ => show win0_1.index ⟨(i 0).val / 1024, ht⟩ (0 : Fin 2) * 1024 ≤ (i 0).val ∧ (i 0).val < win0_1.index ⟨(i 0).val / 1024, ht⟩ (0 : Fin 2) * 1024 + 1024; (have e2' : win0_1.index ⟨(i 0).val / 1024, ht⟩ (0 : Fin 2) = (i 0).val / 1024 := e2); omega
  | ⟨1, _⟩ => show win0_1.index ⟨(i 0).val / 1024, ht⟩ (1 : Fin 2) * 4096 ≤ (i 1).val ∧ (i 1).val < win0_1.index ⟨(i 0).val / 1024, ht⟩ (1 : Fin 2) * 4096 + 4096; omega

/-- THE OUTPUT ARRAY after the pass: the input array treated row by row. -/
theorem after_pass0 (c : Dev nD) : E1 m c main_v0 = Spec.quantArr (n := 8192) (E0 m c main_arg0) :=
  (B1_arr m c 1).trans ((dat0 (E0 m) c).arrAt_eq_of_cover 1 _ (fun t _ => wrote0 m c t) (covered0))

/-! ## The rounding pass over the weights: its output array, whole -/

/-- The pass's two index maps over its grid: point `t` takes row block `t`, all columns. -/
theorem grid1_blocks : ∀ t : Fin cfg1.N, win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- WHAT POINT `t` WRITES BACK is block `t` of the array treated row by row: a row's groups lie inside the row, and a
    block is whole rows, so treating the block is treating the array there. -/
theorem wrote1 (c : Dev nD) (t : Fin cfg1.N) :
    (dat1 (E1 m) c).flushed 1 t = ((cfg1.win 1).blk t).view.read (Elt Ideal) (Spec.quantArr (n := 4096) (E1 m c main_arg1)) := by
  show (cfg1.win 1).cut (grid1.coords t) ((dat1 (E1 m) c).after 1 t) = _
  rw [dat1_after_out]
  unfold rounded1
  rw [View.canon_unit_zero hz]
  simp only [View.ld_unit_zero (S := S1024x4096) hz]
  rw [Cert.KernelIdeal.PayAt.quant_pay1]
  obtain ⟨e0, e1, e2, e3⟩ := grid1_blocks t
  funext j
  refine quantArr_block (blk1 (E1 m) c 0 t) (E1 m c main_arg1) j (((cfg1.win 1).blk t).view.emb j) ?_ ?_
  · show win1_1.index t (1 : Fin 2) * 4096 + 1 * (j 1).val = (j 1).val
    omega
  · intro k
    show E1 m c main_arg1 (((cfg1.win 0).blk t).view.emb (ix2 (j 0) k)) = E1 m c main_arg1 (ix2 ((((cfg1.win 1).blk t).view.emb j) 0) k)
    congr 1
    funext a; apply Fin.ext
    match a with
    | ⟨0, _⟩ => show win1_0.index t (0 : Fin 2) * 1024 + 1 * (j 0).val = win1_1.index t (0 : Fin 2) * 1024 + 1 * (j 0).val; omega
    | ⟨1, _⟩ => show win1_0.index t (1 : Fin 2) * 4096 + 1 * k.val = k.val; omega

/-- An index of the output array is in point `t`'s block iff each coordinate is in the block's range. -/
theorem in_block1 (t : Fin cfg1.N) (i : S4096x4096.Idx) :
    i ∈ ((cfg1.win 1).blk t).view.set ↔ ∀ a : Fin 2, win1_1.index t a * S1024x4096.size a ≤ (i a).val ∧ (i a).val < win1_1.index t a * S1024x4096.size a + S1024x4096.size a := by
  show i ∈ ((View.whole main_v1).slice (win1_1.rect t)).set ↔ _
  rw [View.set_slice_whole, Rect.mem_set_unit]
  exact Iff.rfl

/-- Every row lies in the block of the point numbered by the row's thousand-and-twenty-four. -/
theorem covered1 (i : S4096x4096.Idx) : ∃ t : Fin cfg1.N, (cfg1.win 1).flush t = true ∧ i ∈ ((cfg1.win 1).blk t).view.set := by
  have hi0 : (i 0).val < 4096 := (i 0).isLt
  have hi1 : (i 1).val < 4096 := (i 1).isLt
  have hN : cfg1.N = 4 := N_1
  have ht : (i 0).val / 1024 < cfg1.N := by rw [hN]; omega
  refine ⟨⟨(i 0).val / 1024, ht⟩, flush1_1 _, ?_⟩
  rw [in_block1]
  obtain ⟨e0, e1, e2, e3⟩ := grid1_blocks ⟨(i 0).val / 1024, ht⟩
  intro a
  match a with
  | ⟨0, _⟩ => show win1_1.index ⟨(i 0).val / 1024, ht⟩ (0 : Fin 2) * 1024 ≤ (i 0).val ∧ (i 0).val < win1_1.index ⟨(i 0).val / 1024, ht⟩ (0 : Fin 2) * 1024 + 1024; (have e2' : win1_1.index ⟨(i 0).val / 1024, ht⟩ (0 : Fin 2) = (i 0).val / 1024 := e2); omega
  | ⟨1, _⟩ => show win1_1.index ⟨(i 0).val / 1024, ht⟩ (1 : Fin 2) * 4096 ≤ (i 1).val ∧ (i 1).val < win1_1.index ⟨(i 0).val / 1024, ht⟩ (1 : Fin 2) * 4096 + 4096; omega

/-- THE OUTPUT ARRAY after the pass: the input array treated row by row. -/
theorem after_pass1 (c : Dev nD) : E2 m c main_v1 = Spec.quantArr (n := 4096) (E1 m c main_arg1) :=
  (B2_arr m c 1).trans ((dat1 (E1 m) c).arrAt_eq_of_cover 1 _ (fun t _ => wrote1 m c t) (covered1))

/-! ## The product pass: what the accumulator's and the output block's pieces read back as -/

section Pieces
variable (V : (c : Dev nD) → (b : Ref sig .tc) → Buf (Elt Ideal) ((c : Thread nD τ).loc b))

/-- After a first-half point the accumulator holds the body's sum applied to the zero block: the zero store is read
    back whole, and the sum's store is the last. -/
theorem firstAcc_eq (c : Dev nD) (t : Fin cfg2.N) (h : t.val % 2 = 0) :
    firstAcc (F := Ideal) V c t h = k2_pay2 (blk2 V c 0 t) (blk2 V c 1 t) (k2_pay1 (F := Ideal)) := by
  unfold firstAcc
  rw [View.read_writes_eq_canon _ _ _ (firstAcc_covers V c t h)]
  unfold runFirst
  dsimp only
  sl_unfold_words
  rw [View.canon_cons_unit_zero hz, View.readCov_unit_zero _ hz]
  simp only [View.readAt_eq_ld, Memref.IsWhole.read_unread, View.ld_unit_zero (S := S2048x2048) hz, View.ld_unit_zero (S := S1024x2048) hz]

/-- After a last-half point the output block holds the body's sum applied to what the first-half point before left in
    the accumulator: the sum is stored into the accumulator, read back whole and stored into the output block. -/
theorem lastOut_eq (c : Dev nD) (t : Fin cfg2.N) (h : ¬t.val % 2 = 0) :
    lastOut (F := Ideal) V c t h = k2_pay2 (blk2 V c 0 t) (blk2 V c 1 t) (firstAcc V c (before t) (before_even t h)) := by
  unfold lastOut
  rw [View.read_writes_eq_canon _ _ _ (lastOut_covers V c t h)]
  unfold lastRun runLast
  dsimp only
  sl_unfold_words
  rw [View.canon_unit_zero hz, View.readCov_unit_zero _ hz]
  simp only [View.readAt_eq_ld, Memref.IsWhole.read_unread, View.ld_unit_zero (S := S2048x2048) hz, View.ld_unit_zero (S := S1024x2048) hz, View.ld_unit_zero (S := S2048x1024) hz]
  exact congrArg _ (Memref.IsWhole.read_unread (Memref.isWhole_whole cc2_scratch0) _)

end Pieces

/-! ## The product pass: its output array, whole -/

/-- Row `r` of one matrix against row `s` of another: the sum over the 4096 columns of the products. -/
def rowDot (A : Fin 8192 → Fin 4096 → EReal) (B : Fin 4096 → Fin 4096 → EReal) (r : Fin 8192) (s : Fin 4096) : EReal :=
  ∑ k : Fin 4096, A r k * B s k

/-- A matrix times the transpose of another, index by index. -/
def timesTranspose (X : S8192x4096.Idx → EReal) (W : S4096x4096.Idx → EReal) : S8192x4096.Idx → EReal :=
  fun i => rowDot (fun r k => X (ix2 r k)) (fun r k => W (ix2 r k)) (i 0) (i 1)

/-- A sum over the 4096 columns is the sum over the first 2048 plus the sum over the last 2048. -/
theorem sum_halves (f : Fin 4096 → EReal) :
    ∑ k : Fin 4096, f k = ∑ k : Fin 2048, f ⟨k.val, by omega⟩ + ∑ k : Fin 2048, f ⟨2048 + k.val, by omega⟩ :=
  Fin.sum_univ_add (a := 2048) (b := 2048) f

/-- The pass's three index maps over its grid: point `t` is (row block `t / 8`, column block `t / 2 % 4`, half `t % 2`). -/
theorem grid2_blocks : ∀ t : Fin cfg2.N, win2_0.index t (0 : Fin 2) = t.val / 8 ∧ win2_0.index t (1 : Fin 2) = t.val % 2
    ∧ win2_1.index t (0 : Fin 2) = t.val / 2 % 4 ∧ win2_1.index t (1 : Fin 2) = t.val % 2
    ∧ win2_2.index t (0 : Fin 2) = t.val / 8 ∧ win2_2.index t (1 : Fin 2) = t.val / 2 % 4 :=
  (by decide +kernel : ∀ t : Fin grid2.N, _)

/-- WHAT A LAST-HALF POINT WRITES BACK is its block of the product: zero plus the first half's partial sum plus the
    second half's is the sum over all 4096 columns. -/
theorem wrote2 (c : Dev nD) (t : Fin cfg2.N) (hf : (cfg2.win 2).flush t = true) :
    (dat2 (E2 m) c).flushed 2 t = ((cfg2.win 2).blk t).view.read (Elt Ideal) (timesTranspose (E2 m c main_v0) (E2 m c main_v1)) := by
  have ho : ¬t.val % 2 = 0 := by have := (flush2_2 t).mp hf; omega
  show (cfg2.win 2).cut (grid2.coords t) ((dat2 (E2 m) c).after 2 t) = _
  rw [dat2_after_out, show outAt (E2 m) c t.val t.isLt = lastOut (E2 m) c t ho from dif_neg ho, lastOut_eq, firstAcc_eq]
  obtain ⟨a0, a1, b0, b1, o0, o1⟩ := grid2_blocks t
  obtain ⟨a0', a1', b0', b1', -, -⟩ := grid2_blocks (before t)
  have hb : (before t).val = t.val - 1 := rfl
  have hN : t.val < 32 := lt_of_lt_of_eq t.isLt N_2
  funext j
  obtain ⟨p, q, rfl⟩ : ∃ (p : Fin 2048) (q : Fin 1024), j = ix2 p q := ⟨j 0, j 1, eq_ix2 j⟩
  show k2_pay2 (F := Ideal) (blk2 (E2 m) c 0 t) (blk2 (E2 m) c 1 t) (k2_pay2 (F := Ideal) (blk2 (E2 m) c 0 (before t)) (blk2 (E2 m) c 1 (before t)) (k2_pay1 (F := Ideal))) (ix2 p q)
      = timesTranspose (E2 m c main_v0) (E2 m c main_v1) (((cfg2.win 2).blk t).view.emb (ix2 p q))
  rw [Cert.KernelIdeal.PayAt.acc_pay, Cert.KernelIdeal.PayAt.acc_pay, Cert.KernelIdeal.PayAt.zero_pay, zero_add]
  unfold timesTranspose rowDot
  rw [sum_halves]
  congr 1
  · refine Finset.sum_congr rfl fun k _ => ?_
    have hk : k.val < 2048 := k.isLt
    congr 1
    · show E2 m c main_v0 (((cfg2.win 0).blk (before t)).view.emb (ix2 p k)) = E2 m c main_v0 (ix2 (((cfg2.win 2).blk t).view.emb (ix2 p q) 0) ⟨k.val, by omega⟩)
      congr 1; funext a; apply Fin.ext
      match a with
      | ⟨0, _⟩ => show win2_0.index (before t) (0 : Fin 2) * 2048 + 1 * p.val = win2_2.index t (0 : Fin 2) * 2048 + 1 * p.val; omega
      | ⟨1, _⟩ => show win2_0.index (before t) (1 : Fin 2) * 2048 + 1 * k.val = k.val; omega
    · show E2 m c main_v1 (((cfg2.win 1).blk (before t)).view.emb (ix2 q k)) = E2 m c main_v1 (ix2 (((cfg2.win 2).blk t).view.emb (ix2 p q) 1) ⟨k.val, by omega⟩)
      congr 1; funext a; apply Fin.ext
      match a with
      | ⟨0, _⟩ => show win2_1.index (before t) (0 : Fin 2) * 1024 + 1 * q.val = win2_2.index t (1 : Fin 2) * 1024 + 1 * q.val; omega
      | ⟨1, _⟩ => show win2_1.index (before t) (1 : Fin 2) * 2048 + 1 * k.val = k.val; omega
  · refine Finset.sum_congr rfl fun k _ => ?_
    have hk : k.val < 2048 := k.isLt
    congr 1
    · show E2 m c main_v0 (((cfg2.win 0).blk t).view.emb (ix2 p k)) = E2 m c main_v0 (ix2 (((cfg2.win 2).blk t).view.emb (ix2 p q) 0) ⟨2048 + k.val, by omega⟩)
      congr 1; funext a; apply Fin.ext
      match a with
      | ⟨0, _⟩ => show win2_0.index t (0 : Fin 2) * 2048 + 1 * p.val = win2_2.index t (0 : Fin 2) * 2048 + 1 * p.val; omega
      | ⟨1, _⟩ => show win2_0.index t (1 : Fin 2) * 2048 + 1 * k.val = 2048 + k.val; omega
    · show E2 m c main_v1 (((cfg2.win 1).blk t).view.emb (ix2 q k)) = E2 m c main_v1 (ix2 (((cfg2.win 2).blk t).view.emb (ix2 p q) 1) ⟨2048 + k.val, by omega⟩)
      congr 1; funext a; apply Fin.ext
      match a with
      | ⟨0, _⟩ => show win2_1.index t (0 : Fin 2) * 1024 + 1 * q.val = win2_2.index t (1 : Fin 2) * 1024 + 1 * q.val; omega
      | ⟨1, _⟩ => show win2_1.index t (1 : Fin 2) * 2048 + 1 * k.val = 2048 + k.val; omega

/-- An index of the result array is in point `t`'s block iff each coordinate is in the block's range. -/
theorem in_block2 (t : Fin cfg2.N) (i : S8192x4096.Idx) :
    i ∈ ((cfg2.win 2).blk t).view.set ↔ ∀ a : Fin 2, win2_2.index t a * S2048x1024.size a ≤ (i a).val ∧ (i a).val < win2_2.index t a * S2048x1024.size a + S2048x1024.size a := by
  show i ∈ ((View.whole main_v2).slice (win2_2.rect t)).set ↔ _
  rw [View.set_slice_whole, Rect.mem_set_unit]
  exact Iff.rfl

/-- Every entry of the result lies in the block of the last-half point of its (row block, column block) pair. -/
theorem covered2 (i : S8192x4096.Idx) : ∃ t : Fin cfg2.N, (cfg2.win 2).flush t = true ∧ i ∈ ((cfg2.win 2).blk t).view.set := by
  have hi0 : (i 0).val < 8192 := (i 0).isLt
  have hi1 : (i 1).val < 4096 := (i 1).isLt
  have hN : cfg2.N = 32 := N_2
  have ht : 8 * ((i 0).val / 2048) + 2 * ((i 1).val / 1024) + 1 < cfg2.N := by rw [hN]; omega
  refine ⟨⟨8 * ((i 0).val / 2048) + 2 * ((i 1).val / 1024) + 1, ht⟩, (flush2_2 _).mpr (by show (8 * ((i 0).val / 2048) + 2 * ((i 1).val / 1024) + 1) % 2 = 1; omega), ?_⟩
  rw [in_block2]
  obtain ⟨-, -, -, -, o0, o1⟩ := grid2_blocks ⟨8 * ((i 0).val / 2048) + 2 * ((i 1).val / 1024) + 1, ht⟩
  have o0' : win2_2.index ⟨8 * ((i 0).val / 2048) + 2 * ((i 1).val / 1024) + 1, ht⟩ (0 : Fin 2) = (8 * ((i 0).val / 2048) + 2 * ((i 1).val / 1024) + 1) / 8 := o0
  have o1' : win2_2.index ⟨8 * ((i 0).val / 2048) + 2 * ((i 1).val / 1024) + 1, ht⟩ (1 : Fin 2) = (8 * ((i 0).val / 2048) + 2 * ((i 1).val / 1024) + 1) / 2 % 4 := o1
  intro a
  match a with
  | ⟨0, _⟩ => show win2_2.index ⟨8 * ((i 0).val / 2048) + 2 * ((i 1).val / 1024) + 1, ht⟩ (0 : Fin 2) * 2048 ≤ (i 0).val ∧ (i 0).val < win2_2.index ⟨8 * ((i 0).val / 2048) + 2 * ((i 1).val / 1024) + 1, ht⟩ (0 : Fin 2) * 2048 + 2048; omega
  | ⟨1, _⟩ => show win2_2.index ⟨8 * ((i 0).val / 2048) + 2 * ((i 1).val / 1024) + 1, ht⟩ (1 : Fin 2) * 1024 ≤ (i 1).val ∧ (i 1).val < win2_2.index ⟨8 * ((i 0).val / 2048) + 2 * ((i 1).val / 1024) + 1, ht⟩ (1 : Fin 2) * 1024 + 1024; omega

/-- THE RESULT ARRAY after the pass: the first operand array times the transpose of the second. -/
theorem after_pass2 (c : Dev nD) : E3 m c main_v2 = timesTranspose (E2 m c main_v0) (E2 m c main_v1) :=
  (B3_arr m c 2).trans ((dat2 (E2 m) c).arrAt_eq_of_cover 2 _ (fun t hf => wrote2 m c t hf) covered2)

/-! ## The whole program's result -/

/-- THE RESULT of the program as one function of its two argument arrays: both treated row by row, the first times the
    transpose of the second. -/
theorem program_result (c : Dev nD) :
    B3 m c (Proc.devRef .tc main_v2) = Cert.Spec.result (m ((c : Thread nD τ).loc main_arg0)) (m ((c : Thread nD τ).loc main_arg1)) := by
  have hx : E2 m c main_v0 = Cert.Spec.quantArr (n := 8192) (m ((c : Thread nD τ).loc main_arg0)) :=
    (B2_of_ne m c main_v0 (by decide)).trans (after_pass0 m c)
  have hw : E2 m c main_v1 = Cert.Spec.quantArr (n := 4096) (m ((c : Thread nD τ).loc main_arg1)) :=
    (after_pass1 m c).trans (congrArg (Cert.Spec.quantArr (n := 4096)) (funext fun i => congrFun (B1_of_ne m c main_arg1 (by decide)) i))
  refine (after_pass2 m c).trans ?_
  rw [hx, hw]
  rfl

end Cert.KernelIdeal.Values

end
-- ==== Proof.RefIsSpec.lean ====
/-
  The reference computes the specification.

  The reference cuts each row of 4096 entries into 64 groups of 64, takes each group's largest magnitude as the running
  maximum from −∞ of the entries' absolute values, turns it into the group's step, divides every entry by its group's
  step, rounds half to even, clamps to [-8, 7] and multiplies by the step again; it then multiplies the activations so
  treated by the transpose of the weights so treated.  Read index by index, each stage is the corresponding piece of
  the specification: the reduction over a group's members is the fold of max over them, entry k of a row is member
  k mod 64 of group k div 64 ((r·64 + g)·64 + l = r·4096 + (64 g + l)), and the product's entry (i, j) is the sum over
  k of the treated x[i, k] times the treated w[j, k].
-/
import proofs.«162318_j1176821039703_2_alg».proof.Proof.Gen.ReferenceIdeal.Read
import proofs.«162318_j1176821039703_2_alg».proof.Proof.Spec
import Idealize.ShloMosaic.PureOps.Reduce
import Idealize.ShloMosaic.PureOps.Ideal
import Idealize.ShloMosaic.PureOps.Ideal.Laws
import Idealize.ShloMosaic.Lib.ValueIdx

noncomputable section

namespace Cert.RefSpec

open Cert.ReferenceIdeal Cert.ReferenceIdeal.Gen Cert.ReferenceIdeal.Read Idealize.ShloMosaic Idealize.ShloMosaic.ValueIdx

/-! ## The activations: 8192 rows of 4096 -/

/-- The rank-3 shape with its last axis dropped is the rank-2 shape of rows and groups. -/
theorem reduces_x : S8192x64x64.Reduces [2] S8192x64 := by decide

/-- Group (r, g) with member l put back is (r, g, l). -/
theorem lift_x (r : Fin 8192) (g : Fin 64) (l : Fin (S8192x64x64.size 2)) :
    reduces_x.lift (ix2 r g) l = ix3 r g (⟨l.val, l.isLt⟩ : Fin 64) := by
  funext c; apply Fin.ext
  fin_cases c <;> rfl

/-- Member l of group g of row r is entry 64 g + l of that row: (r·64 + g)·64 + l = r·4096 + (64 g + l). -/
theorem idx_v0_ix3 (r : Fin 8192) (g l : Fin 64) : idx_main_v0 (ix3 r g l) = ix2 r (Cert.Spec.member g l) := by
  funext a; apply Fin.ext
  have hr := r.isLt; have hg := g.isLt; have hl := l.isLt
  match a with
  | ⟨0, _⟩ => show ((r.val * 64 + g.val) * 64 + l.val) / 4096 = r.val; omega
  | ⟨1, _⟩ => show ((r.val * 64 + g.val) * 64 + l.val) % 4096 = 64 * g.val + l.val; omega

/-- The reduction over a group's members, from −∞, of the magnitudes: the group's largest magnitude. -/
theorem v2_x (x0 : (⟨S8192x4096, .f32⟩ : BufTy).Contents (Elt Ideal)) (r : Fin 8192) (g : Fin 64) :
    val_main_v2 (F := Ideal) x0 (ix2 r g) = Cert.Spec.groupMax (fun l => x0 (ix2 r (Cert.Spec.member g l))) := by
  unfold val_main_v2
  rw [Host.reduce_eq_fold_single FloatOps.maximumf _ _ reducesTo_S8192x64x64_S8192x64_d2 reduces_x h_S_]
  have hf : (val_main_v1 (F := Ideal) x0 ∘ reduces_x.lift (ix2 r g))
      = fun l : Fin 64 => max (x0 (ix2 r (Cert.Spec.member g l))) (-(x0 (ix2 r (Cert.Spec.member g l)))) := by
    funext l
    show val_main_v1 (F := Ideal) x0 (reduces_x.lift (ix2 r g) l) = _
    rw [lift_x, val_main_v1_apply, val_main_v0_apply, idx_v0_ix3]
    rfl
  unfold Cert.Spec.groupMax
  exact congrArg (fun f => Finset.fold max (Ideal.ofBits .f32 0xFF800000#32) f (Finset.univ : Finset (Fin 64))) hf

theorem idx_v3_ix3 (r : Fin 8192) (g : Fin 64) (u : Fin 1) : idx_main_v3 (ix3 r g u) = ix2 r g := by
  funext a; apply Fin.ext
  match a with
  | ⟨0, _⟩ => rfl
  | ⟨1, _⟩ => rfl

/-- The step of group g of row r. -/
theorem v7_x (x0 : (⟨S8192x4096, .f32⟩ : BufTy).Contents (Elt Ideal)) (r : Fin 8192) (g : Fin 64) (u : Fin 1) :
    val_main_v7 (F := Ideal) x0 (ix3 r g u) = Cert.Spec.rowStep (fun k => x0 (ix2 r k)) g := by
  rw [val_main_v7_apply, val_main_v5_apply, val_main_v3_apply, idx_v3_ix3, v2_x, val_main_v4_apply, val_main_cst_0_apply,
    val_main_v6_apply, val_main_cst_1_apply]
  rfl

theorem idx_v8_ix3 (r : Fin 8192) (g l : Fin 64) : idx_main_v8 (ix3 r g l) = ix3 r g (0 : Fin 1) := by
  funext a; apply Fin.ext
  match a with
  | ⟨0, _⟩ => rfl
  | ⟨1, _⟩ => rfl
  | ⟨2, _⟩ => rfl

theorem idx_v12_ix3 (r : Fin 8192) (g l : Fin 64) : idx_main_v12 (ix3 r g l) = ix3 r g (0 : Fin 1) := by
  funext a; apply Fin.ext
  match a with
  | ⟨0, _⟩ => rfl
  | ⟨1, _⟩ => rfl
  | ⟨2, _⟩ => rfl

/-- Member l of group g of row r, treated at its group's step. -/
theorem v13_x (x0 : (⟨S8192x4096, .f32⟩ : BufTy).Contents (Elt Ideal)) (r : Fin 8192) (g l : Fin 64) :
    val_main_v13 (F := Ideal) x0 (ix3 r g l)
      = Cert.Spec.requant (x0 (ix2 r (Cert.Spec.member g l))) (Cert.Spec.rowStep (fun k => x0 (ix2 r k)) g) := by
  rw [val_main_v13_apply, val_main_v11_apply, val_main_call1_v4_apply, val_main_call1_v3_apply, val_main_cst_3_apply,
    val_main_call1_v2_apply, val_main_call1_v1_apply, val_main_call1_v0_apply, val_main_cst_2_apply,
    val_main_v10_apply, val_main_v9_apply, val_main_v0_apply, idx_v0_ix3, val_main_v8_apply, idx_v8_ix3, v7_x,
    val_main_v12_apply, idx_v12_ix3, v7_x]
  rfl

/-- Entry k of row r lies in group k / 64 as member k % 64. -/
theorem idx_v14_ix2 (r : Fin 8192) (k : Fin 4096) :
    idx_main_v14 (ix2 r k) = ix3 r (Cert.Spec.groupOf k) (⟨k.val % 64, Nat.mod_lt _ (by decide)⟩ : Fin 64) := by
  funext a; apply Fin.ext
  have hr := r.isLt; have hk := k.isLt
  match a with
  | ⟨0, _⟩ => show (r.val * 4096 + k.val) / 4096 = r.val; omega
  | ⟨1, _⟩ => show (r.val * 4096 + k.val) / 64 % 64 = k.val / 64; omega
  | ⟨2, _⟩ => show (r.val * 4096 + k.val) % 64 = k.val % 64; omega

theorem member_groupOf (k : Fin 4096) :
    Cert.Spec.member (Cert.Spec.groupOf k) (⟨k.val % 64, Nat.mod_lt _ (by decide)⟩ : Fin 64) = k := by
  apply Fin.ext
  show 64 * (k.val / 64) + k.val % 64 = k.val
  omega

/-- The treated activations at (r, k): row r treated group by group, at k. -/
theorem v14_x (x0 : (⟨S8192x4096, .f32⟩ : BufTy).Contents (Elt Ideal)) (r : Fin 8192) (k : Fin 4096) :
    val_main_v14 (F := Ideal) x0 (ix2 r k) = Cert.Spec.quantRow (fun k => x0 (ix2 r k)) k := by
  rw [val_main_v14_apply, idx_v14_ix2, v13_x, member_groupOf]
  rfl

/-! ## The weights: 4096 rows of 4096 -/

/-- The rank-3 shape with its last axis dropped is the rank-2 shape of rows and groups. -/
theorem reduces_w : S4096x64x64.Reduces [2] S4096x64 := by decide

/-- Group (r, g) with member l put back is (r, g, l). -/
theorem lift_w (r : Fin 4096) (g : Fin 64) (l : Fin (S4096x64x64.size 2)) :
    reduces_w.lift (ix2 r g) l = ix3 r g (⟨l.val, l.isLt⟩ : Fin 64) := by
  funext c; apply Fin.ext
  fin_cases c <;> rfl

/-- Member l of group g of row r is entry 64 g + l of that row: (r·64 + g)·64 + l = r·4096 + (64 g + l). -/
theorem idx_v15_ix3 (r : Fin 4096) (g l : Fin 64) : idx_main_v15 (ix3 r g l) = ix2 r (Cert.Spec.member g l) := by
  funext a; apply Fin.ext
  have hr := r.isLt; have hg := g.isLt; have hl := l.isLt
  match a with
  | ⟨0, _⟩ => show ((r.val * 64 + g.val) * 64 + l.val) / 4096 = r.val; omega
  | ⟨1, _⟩ => show ((r.val * 64 + g.val) * 64 + l.val) % 4096 = 64 * g.val + l.val; omega

/-- The reduction over a group's members, from −∞, of the magnitudes: the group's largest magnitude. -/
theorem v17_w (x1 : (⟨S4096x4096, .f32⟩ : BufTy).Contents (Elt Ideal)) (r : Fin 4096) (g : Fin 64) :
    val_main_v17 (F := Ideal) x1 (ix2 r g) = Cert.Spec.groupMax (fun l => x1 (ix2 r (Cert.Spec.member g l))) := by
  unfold val_main_v17
  rw [Host.reduce_eq_fold_single FloatOps.maximumf _ _ reducesTo_S4096x64x64_S4096x64_d2 reduces_w h_S_]
  have hf : (val_main_v16 (F := Ideal) x1 ∘ reduces_w.lift (ix2 r g))
      = fun l : Fin 64 => max (x1 (ix2 r (Cert.Spec.member g l))) (-(x1 (ix2 r (Cert.Spec.member g l)))) := by
    funext l
    show val_main_v16 (F := Ideal) x1 (reduces_w.lift (ix2 r g) l) = _
    rw [lift_w, val_main_v16_apply, val_main_v15_apply, idx_v15_ix3]
    rfl
  unfold Cert.Spec.groupMax
  exact congrArg (fun f => Finset.fold max (Ideal.ofBits .f32 0xFF800000#32) f (Finset.univ : Finset (Fin 64))) hf

theorem idx_v18_ix3 (r : Fin 4096) (g : Fin 64) (u : Fin 1) : idx_main_v18 (ix3 r g u) = ix2 r g := by
  funext a; apply Fin.ext
  match a with
  | ⟨0, _⟩ => rfl
  | ⟨1, _⟩ => rfl

/-- The step of group g of row r. -/
theorem v22_w (x1 : (⟨S4096x4096, .f32⟩ : BufTy).Contents (Elt Ideal)) (r : Fin 4096) (g : Fin 64) (u : Fin 1) :
    val_main_v22 (F := Ideal) x1 (ix3 r g u) = Cert.Spec.rowStep (fun k => x1 (ix2 r k)) g := by
  rw [val_main_v22_apply, val_main_v20_apply, val_main_v18_apply, idx_v18_ix3, v17_w, val_main_v19_apply, val_main_cst_5_apply,
    val_main_v21_apply, val_main_cst_6_apply]
  rfl

theorem idx_v23_ix3 (r : Fin 4096) (g l : Fin 64) : idx_main_v23 (ix3 r g l) = ix3 r g (0 : Fin 1) := by
  funext a; apply Fin.ext
  match a with
  | ⟨0, _⟩ => rfl
  | ⟨1, _⟩ => rfl
  | ⟨2, _⟩ => rfl

theorem idx_v27_ix3 (r : Fin 4096) (g l : Fin 64) : idx_main_v27 (ix3 r g l) = ix3 r g (0 : Fin 1) := by
  funext a; apply Fin.ext
  match a with
  | ⟨0, _⟩ => rfl
  | ⟨1, _⟩ => rfl
  | ⟨2, _⟩ => rfl

/-- Member l of group g of row r, treated at its group's step. -/
theorem v28_w (x1 : (⟨S4096x4096, .f32⟩ : BufTy).Contents (Elt Ideal)) (r : Fin 4096) (g l : Fin 64) :
    val_main_v28 (F := Ideal) x1 (ix3 r g l)
      = Cert.Spec.requant (x1 (ix2 r (Cert.Spec.member g l))) (Cert.Spec.rowStep (fun k => x1 (ix2 r k)) g) := by
  rw [val_main_v28_apply, val_main_v26_apply, val_main_call3_v4_apply, val_main_call3_v3_apply, val_main_cst_8_apply,
    val_main_call3_v2_apply, val_main_call3_v1_apply, val_main_call3_v0_apply, val_main_cst_7_apply,
    val_main_v25_apply, val_main_v24_apply, val_main_v15_apply, idx_v15_ix3, val_main_v23_apply, idx_v23_ix3, v22_w,
    val_main_v27_apply, idx_v27_ix3, v22_w]
  rfl

/-- Entry k of row r lies in group k / 64 as member k % 64. -/
theorem idx_v29_ix2 (r : Fin 4096) (k : Fin 4096) :
    idx_main_v29 (ix2 r k) = ix3 r (Cert.Spec.groupOf k) (⟨k.val % 64, Nat.mod_lt _ (by decide)⟩ : Fin 64) := by
  funext a; apply Fin.ext
  have hr := r.isLt; have hk := k.isLt
  match a with
  | ⟨0, _⟩ => show (r.val * 4096 + k.val) / 4096 = r.val; omega
  | ⟨1, _⟩ => show (r.val * 4096 + k.val) / 64 % 64 = k.val / 64; omega
  | ⟨2, _⟩ => show (r.val * 4096 + k.val) % 64 = k.val % 64; omega

/-- The treated weights at (r, k): row r treated group by group, at k. -/
theorem v29_w (x1 : (⟨S4096x4096, .f32⟩ : BufTy).Contents (Elt Ideal)) (r : Fin 4096) (k : Fin 4096) :
    val_main_v29 (F := Ideal) x1 (ix2 r k) = Cert.Spec.quantRow (fun k => x1 (ix2 r k)) k := by
  rw [val_main_v29_apply, idx_v29_ix2, v28_w, member_groupOf]
  rfl

/-! ## The product -/

/-- The transposed treated weights at (k, j) are the treated weights at (j, k). -/
theorem v30_w (x1 : (⟨S4096x4096, .f32⟩ : BufTy).Contents (Elt Ideal)) (k j : Fin 4096) :
    val_main_v30 (F := Ideal) x1 (ix2 k j) = Cert.Spec.quantRow (fun k => x1 (ix2 j k)) k := by
  rw [val_main_v30_apply, show idx_main_v30 (ix2 k j) = ix2 j k from by
    funext a; apply Fin.ext
    match a with
    | ⟨0, _⟩ => rfl
    | ⟨1, _⟩ => rfl]
  exact v29_w x1 j k

theorem lidx_v31_ix2 (r : Fin 8192) (j k : Fin 4096) : lidx_main_v31 (ix2 r j) k = ix2 r k := by
  funext a; apply Fin.ext
  match a with
  | ⟨0, _⟩ => rfl
  | ⟨1, _⟩ => rfl

theorem ridx_v31_ix2 (r : Fin 8192) (j k : Fin 4096) : ridx_main_v31 (ix2 r j) k = ix2 k j := by
  funext a; apply Fin.ext
  match a with
  | ⟨0, _⟩ => rfl
  | ⟨1, _⟩ => rfl

/-- Entry (r, j) of the reference's result: the sum over k of the treated x[r, k] times the treated w[j, k]. -/
theorem v31_ix2 (x0 : (⟨S8192x4096, .f32⟩ : BufTy).Contents (Elt Ideal)) (x1 : (⟨S4096x4096, .f32⟩ : BufTy).Contents (Elt Ideal))
    (r : Fin 8192) (j : Fin 4096) :
    val_main_v31 (F := Ideal) x0 x1 (ix2 r j)
      = Cert.Spec.out (fun r k => x0 (ix2 r k)) (fun r k => x1 (ix2 r k)) r j := by
  rw [val_main_v31_apply]
  unfold Cert.Spec.out
  refine Finset.sum_congr rfl fun k _ => ?_
  rw [lidx_v31_ix2, ridx_v31_ix2, v14_x, v30_w]

/-- The reference's result is the specification's, index by index. -/
theorem ref_is_spec (x0 : (⟨S8192x4096, .f32⟩ : BufTy).Contents (Elt Ideal)) (x1 : (⟨S4096x4096, .f32⟩ : BufTy).Contents (Elt Ideal)) :
    val_main_v31 (F := Ideal) x0 x1 = Cert.Spec.result x0 x1 := by
  funext i
  exact (congrArg (val_main_v31 (F := Ideal) x0 x1) (eq_ix2 i)).trans (v31_ix2 x0 x1 (i 0) (i 1))

end Cert.RefSpec

end
-- ==== Proof.lean ====
/-
  The certificate's five claims.

  Frames: each program runs to the end without fault and leaves its argument arrays as launched.  For the kernel (as
  printed and idealized alike) this is read off the run of its three passes, in which every unscoped buffer is named
  at the end and no pass writes an argument; for the reference it is its run with the result dropped.

  The idealization rewrote nothing, so there is nothing to preserve.

  Values: over the extended reals both programs end with the same array — each row of the activations and of the
  weights cut into groups of 64, every entry divided by its group's step (the group's largest magnitude over 7, at
  least the floor), rounded half to even, clamped to [-8, 7] and multiplied back; then entry (i, j) the sum over the
  4096 columns of the products of row i of the one with row j of the other.  The kernel forms that sum in two halves
  into an accumulator started at zero, the reference in one contraction against the transposed weights; a change of
  float format is the identity here.  No finiteness of the inputs is needed.
-/
import proofs.«162318_j1176821039703_2_alg».proof.Proof.Gen.Kernel
import proofs.«162318_j1176821039703_2_alg».proof.Proof.Gen.KernelIdeal
import proofs.«162318_j1176821039703_2_alg».proof.Proof.Gen.ReferenceIdeal
import proofs.«162318_j1176821039703_2_alg».proof.Proof.Gen.ReferenceIdeal.Run
import proofs.«162318_j1176821039703_2_alg».proof.Proof.Gen.ReferenceIdeal.Read
import proofs.«162318_j1176821039703_2_alg».proof.Proof.Gen.Pre_finite_inputs
import proofs.«162318_j1176821039703_2_alg».proof.Defs
import proofs.«162318_j1176821039703_2_alg».proof.Proof.KernelRun
import proofs.«162318_j1176821039703_2_alg».proof.Proof.KernelIdealValue
import proofs.«162318_j1176821039703_2_alg».proof.Proof.RefIsSpec

noncomputable section

namespace Cert.Proof

open Idealize.ShloMosaic Idealize.ShloMosaic.TcCoe Idealize.SL.Sem

theorem frame_kernel : Cert.frame_Kernel := fun m ρ _ => Cert.Kernel.Frames.frame m ρ

theorem frame_kernelIdeal : Cert.frame_KernelIdeal := fun m ρ _ => Cert.KernelIdeal.Frames.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs, run from memories that agree on the arguments, end with the specification's array of the
    arguments: the kernel by its run read at the result buffer, the reference by its run's term read index by index. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono (fun _ h c =>
      ⟨(h c _ (Cert.KernelIdeal.Frames.mem_uc Cert.KernelIdeal.main_v2 (by decide))).trans (Cert.KernelIdeal.Values.program_result m c),
       (h c _ (Cert.KernelIdeal.Frames.mem_uc Cert.KernelIdeal.main_arg0 (by decide))).trans (Cert.KernelIdeal.Frames.B3_main_arg0 m c),
       (h c _ (Cert.KernelIdeal.Frames.mem_uc Cert.KernelIdeal.main_arg1 (by decide))).trans (Cert.KernelIdeal.Frames.B3_main_arg1 m c)⟩)
      (Cert.KernelIdeal.Frames.run_all m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.RefSpec.ref_is_spec, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
